-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2048x1000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S100 : Shape := ⟨1, ![100]⟩
abbrev S1000x512 : Shape := ⟨2, ![1000, 512]⟩
abbrev S1000 : Shape := ⟨1, ![1000]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S1000 : S_.BroadcastsInDim S1000 (![] : Fin 0 → Fin S1000.rank)
  reducesTo_S1000_S_d0 : S1000.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg1 : IVec S131072 32) (main_arg6 : FVec F S1000 .f32) (main_v13 : IVec S_ 1) (main_v16 : IVec S1000 1) : IVec S_ 1 :=
  let main_c_5 : IVec S_ 1 := constantI S_ 1 1#1
  let main_v17 : IVec S_ 1 := (fun x v => Host.reduce IntOp.andi x v reducesTo_S1000_S_d0 h_S_) main_v16 main_c_5
  let main_v18 : IVec S_ 1 := andi main_v13 main_v17
  let main_v19 : FVec F S1000 .f32 := Host.absf main_arg6
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_c_8 : IVec S_ 32 := constantI S_ 32 0#32
  let main_v24 : IVec S131072 32 := broadcastInDim S131072 ![] bcast_S_S131072 main_c_8
  let main_v25 : IVec S131072 1 := cmpi .sge main_arg1 main_v24
  let main_c_9 : IVec S_ 32 := constantI S_ 32 1000#32
  let main_v26 : IVec S131072 32 := broadcastInDim S131072 ![] bcast_S_S131072 main_c_9
  let main_v27 : IVec S131072 1 := cmpi .slt main_arg1 main_v26
  let main_v28 : IVec S131072 1 := andi main_v25 main_v27
  let main_c_10 : IVec S_ 1 := constantI S_ 1 1#1
  let main_v29 : IVec S_ 1 := (fun x v => Host.reduce IntOp.andi x v reducesTo_S131072_S_d0 h_S_) main_v28 main_c_10
  let main_v30 : IVec S_ 1 := andi main_v23 main_v29
  main_v30

def fn {F : FTy → Type} [FloatOps F] (main_arg0 : FVec F S131072x512 .f32) (main_arg1 : IVec S131072 32) (main_arg2 : IVec S100 32) (main_arg3 : FVec F S1000x512 .f32) (main_arg4 : FVec F S1000x512 .f32) (main_arg5 : FVec F S1000 .f32) (main_arg6 : FVec F S1000 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1000x512 .f32 := Host.absf main_arg3
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000x512 .f32 := Host.absf main_arg4
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S1000 .f32 := Host.absf main_arg5
  let main_cst_4 : FVec F S_ .f32 := constant S_ .f32 0x7F800000#32
  let main_v15 : FVec F S1000 .f32 := broadcastInDim S1000 ![] bcast_S_S1000 main_cst_4
  let main_v16 : IVec S1000 1 := cmpf .olt main_v14 main_v15
  fn_part1 (F := F) main_arg1 main_arg6 main_v13 main_v16
-- ==== Kernel.lean ====
abbrev S131072x512 : Shape := ⟨2, ![131072, 512]⟩
abbrev S131072 : Shape := ⟨1, ![131072]⟩
abbrev S100 : Shape := ⟨1, ![100]⟩
abbrev S1000x512 : Shape := ⟨2, ![1000, 512]⟩
abbrev S1000 : Shape := ⟨1, ![1000]⟩
abbrev S_ : Shape := ⟨0, ![]⟩
abbrev S131072x1 : Shape := ⟨2, ![131072, 1]⟩
abbrev S2x1000x512 : Shape := ⟨3, ![2, 1000, 512]⟩
abbrev S2x1x1000 : Shape := ⟨3, ![2, 1, 1000]⟩
abbrev S2048x512 : Shape := ⟨2, ![2048, 512]⟩
abbrev S2048x1 : Shape := ⟨2, ![2048, 1]⟩
abbrev S1x1000x512 : Shape := ⟨3, ![1, 1000, 512]⟩
abbrev S1x1x1000 : Shape := ⟨3, ![1, 1, 1000]⟩
abbrev S2048 : Shape := ⟨1, ![2048]⟩
abbrev S1x1000 : Shape := ⟨2, ![1, 1000]⟩
abbrev S2048x1000 : Shape := ⟨2, ![2048, 1000]⟩
abbrev S1000x1 : Shape := ⟨2, ![1000, 1]⟩
abbrev S100x1 : Shape := ⟨2, ![100, 1]⟩

abbrev nBuf : Space → Nat
  | .hbm => 86
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S100, .i32⟩
  | .hbm, ⟨3, _⟩ => ⟨S1000x512, .f32⟩
  | .hbm, ⟨4, _⟩ => ⟨S1000x512, .f32⟩
  | .hbm, ⟨5, _⟩ => ⟨S1000, .f32⟩
  | .hbm, ⟨6, _⟩ => ⟨S1000, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072x1, .i32⟩
  | .hbm, ⟨16, _⟩ => ⟨S2x1000x512, .f32⟩
  | .hbm, ⟨17, _⟩ => ⟨S2x1x1000, .f32⟩
  | .hbm, ⟨18, _⟩ => ⟨S_, .f32⟩
  | .hbm, ⟨19, _⟩ => ⟨S1000x512, .f32⟩
  | .hbm, ⟨20, _⟩ => ⟨S_, .f32⟩
  | .hbm, ⟨21, _⟩ => ⟨S1x1000, .f32⟩
  | .hbm, ⟨22, _⟩ => ⟨S1000, .f32⟩
  | .hbm, ⟨23, _⟩ => ⟨S_, .f32⟩
  | .hbm, ⟨24, _⟩ => ⟨S1000, .f32⟩
  | .hbm, ⟨25, _⟩ => ⟨S1000, .i1⟩
  | .hbm, ⟨26, _⟩ => ⟨S_, .f32⟩
  | .hbm, ⟨27, _⟩ => ⟨S1000, .f32⟩
  | .hbm, ⟨28, _⟩ => ⟨S1000, .f32⟩
  | .hbm, ⟨29, _⟩ => ⟨S1000x1, .f32⟩
  | .hbm, ⟨30, _⟩ => ⟨S1000x512, .f32⟩
  | .hbm, ⟨31, _⟩ => ⟨S1000x512, .f32⟩
  | .hbm, ⟨32, _⟩ => ⟨S_, .i1⟩
  | .hbm, ⟨33, _⟩ => ⟨S1000, .i1⟩
  | .hbm, ⟨34, _⟩ => ⟨S_, .i32⟩
  | .hbm, ⟨35, _⟩ => ⟨S100, .i32⟩
  | .hbm, ⟨36, _⟩ => ⟨S100, .i1⟩
  | .hbm, ⟨37, _⟩ => ⟨S_, .i32⟩
  | .hbm, ⟨38, _⟩ => ⟨S100, .i32⟩
  | .hbm, ⟨39, _⟩ => ⟨S100, .i32⟩
  | .hbm, ⟨40, _⟩ => ⟨S100, .i32⟩
  | .hbm, ⟨41, _⟩ => ⟨S100x1, .i32⟩
  | .hbm, ⟨42, _⟩ => ⟨S_, .i1⟩
  | .hbm, ⟨43, _⟩ => ⟨S100, .i1⟩
  | .hbm, ⟨44, _⟩ => ⟨S1000, .i1⟩
  | .hbm, ⟨45, _⟩ => ⟨S1000x512, .f32⟩
  | .hbm, ⟨46, _⟩ => ⟨S1000x512, .f32⟩
  | .hbm, ⟨47, _⟩ => ⟨S_, .f32⟩
  | .hbm, ⟨48, _⟩ => ⟨S1000, .f32⟩
  | .hbm, ⟨49, _⟩ => ⟨S_, .f32⟩
  | .hbm, ⟨50, _⟩ => ⟨S1000, .f32⟩
  | .hbm, ⟨51, _⟩ => ⟨S1000, .f32⟩
  | .hbm, ⟨52, _⟩ => ⟨S1000x512, .f32⟩
  | .hbm, ⟨53, _⟩ => ⟨S1000x512, .f32⟩
  | .hbm, ⟨54, _⟩ => ⟨S_, .f32⟩
  | .hbm, ⟨55, _⟩ => ⟨S1000, .f32⟩
  | .hbm, ⟨56, _⟩ => ⟨S_, .f32⟩
  | .hbm, ⟨57, _⟩ => ⟨S1000, .f32⟩
  | .hbm, ⟨58, _⟩ => ⟨S1000, .f32⟩
  | .hbm, ⟨59, _⟩ => ⟨S1000, .i1⟩
  | .hbm, ⟨60, _⟩ => ⟨S_, .f32⟩
  | .hbm, ⟨61, _⟩ => ⟨S1000, .f32⟩
  | .hbm, ⟨62, _⟩ => ⟨S1000, .i1⟩
  | .hbm, ⟨63, _⟩ => ⟨S1000, .i1⟩
  | .hbm, ⟨64, _⟩ => ⟨S1000, .i1⟩
  | .hbm, ⟨65, _⟩ => ⟨S_, .f32⟩
  | .hbm, ⟨66, _⟩ => ⟨S1000, .f32⟩
  | .hbm, ⟨67, _⟩ => ⟨S1000, .i1⟩
  | .hbm, ⟨68, _⟩ => ⟨S1000, .i1⟩
  | .hbm, ⟨69, _⟩ => ⟨S_, .f32⟩
  | .hbm, ⟨70, _⟩ => ⟨S_, .f32⟩
  | .hbm, ⟨71, _⟩ => ⟨S1000, .f32⟩
  | .hbm, ⟨72, _⟩ => ⟨S1000, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1000, .f32⟩
  | .hbm, ⟨78, _⟩ => ⟨S1000, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1x1000x512, .f32⟩
  | .local _ .vmem, ⟨5, _⟩ => ⟨S1x1000x512, .f32⟩
  | .local _ .vmem, ⟨6, _⟩ => ⟨S1x1x1000, .f32⟩
  | .local _ .vmem, ⟨7, _⟩ => ⟨S1x1x1000, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_cst : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_c_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_7 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_10 : Ref sig .tc := ⟨.hbm, 54, rfl⟩
abbrev main_v29 : Ref sig .tc := ⟨.hbm, 55, rfl⟩
abbrev main_cst_11 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_12 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_14 : Ref sig .tc := ⟨.hbm, 69, rfl⟩
abbrev main_call1_v0 : Ref sig .tc := ⟨.hbm, 70, rfl⟩
abbrev main_call1_v1 : Ref sig .tc := ⟨.hbm, 71, rfl⟩
abbrev main_v40 : Ref sig .tc := ⟨.hbm, 72, rfl⟩
abbrev main_cst_15 : Ref sig .tc := ⟨.hbm, 73, rfl⟩
abbrev main_v41 : Ref sig .tc := ⟨.hbm, 74, rfl⟩
abbrev main_cst_16 : Ref sig .tc := ⟨.hbm, 75, rfl⟩
abbrev main_call2_v0 : Ref sig .tc := ⟨.hbm, 76, rfl⟩
abbrev main_call2_v1 : Ref sig .tc := ⟨.hbm, 77, rfl⟩
abbrev main_v42 : Ref sig .tc := ⟨.hbm, 78, rfl⟩
abbrev main_cst_17 : Ref sig .tc := ⟨.hbm, 79, rfl⟩
abbrev main_v43 : Ref sig .tc := ⟨.hbm, 80, rfl⟩
abbrev main_cst_18 : Ref sig .tc := ⟨.hbm, 81, rfl⟩
abbrev main_v44 : Ref sig .tc := ⟨.hbm, 82, rfl⟩
abbrev main_cst_19 : Ref sig .tc := ⟨.hbm, 83, rfl⟩
abbrev main_v45 : Ref sig .tc := ⟨.hbm, 84, rfl⟩
abbrev main_v46 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S131072 : S_.BroadcastsInDim S131072 (![] : Fin 0 → Fin S131072.rank)
  shapeCasts_S131072_S131072x1 : S131072.ShapeCasts S131072x1
  inb_S1x1000x512_S1x1000x512_0_0_0 : ∀ a, (![0, 0, 0] : Fin 3 → Nat) a + S1x1000x512.size a ≤ S1x1000x512.size a
  h_S1x1000x512 : 0 < S1x1000x512.numel
  inb_S1x1x1000_S1x1x1000_0_0_0 : ∀ a, (![0, 0, 0] : Fin 3 → Nat) a + S1x1x1000.size a ≤ S1x1x1000.size a
  h_S1x1x1000 : 0 < S1x1x1000.numel
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x1000_d1_w32 : S1x1000.Iotas .tc 32 [1]
  broadcasts_S2048x1_S2048x1000 : S2048x1.Broadcasts S2048x1000
  broadcasts_S1x1000_S2048x1000 : S1x1000.Broadcasts S2048x1000
  natLt_1_32 : 1 < 32
  reduces_S2048x1000_S1000 : S2048x1000.Reduces [0] S1000
  shapeCasts_S1000_S1x1000 : S1000.ShapeCasts S1x1000
  shapeCasts_S1x1000x512_S1x1000x512 : S1x1000x512.ShapeCasts S1x1000x512
  shapeCasts_S1000x512_S1x1000x512 : S1000x512.ShapeCasts S1x1000x512
  shapeCasts_S1x1x1000_S1x1x1000 : S1x1x1000.ShapeCasts S1x1x1000
  shapeCasts_S1x1000_S1x1x1000 : S1x1000.ShapeCasts S1x1x1000
  reducesTo_S2x1000x512_S1000x512_d0 : S2x1000x512.ReducesTo [0] S1000x512
  h_S_ : 0 < S_.numel
  reducesTo_S2x1x1000_S1x1000_d0 : S2x1x1000.ReducesTo [0] S1x1000
  shapeCasts_S1x1000_S1000 : S1x1000.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S100 : S_.BroadcastsInDim S100 (![] : Fin 0 → Fin S100.rank)
  bcast_S100_S100x1_0 : S100.BroadcastsInDim S100x1 (![0] : Fin 1 → Fin S100x1.rank)
  reducesTo_S1000x512_S1000_d1 : S1000x512.ReducesTo [1] S1000
  reducesTo_S1000_S_d0 : S1000.ReducesTo [0] S_
  dot_S2048x1000_S2048x512_S1000x512_0_0_1_1_n_n_wf : DotDims.WF S2048x1000 S2048x512 S1000x512 [0] [0] [1] [1] [] []
  scatter_S1000_S100x1_S100_n_0_0_1_wf : ScatterDims.WF S1000 S100x1 S100 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x512.size a ≤ S2x1000x512.size a
  hwx0_2 : ∀ i : grid0.Coords, EltTy.bits .f32 = 32 ∨ (Rect.block (s := S2x1000x512) S1x1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S2x1x1000.size a
  hwx0_3 : ∀ i : grid0.Coords, EltTy.bits .f32 = 32 ∨ (Rect.block (s := S2x1x1000) S1x1x1000.size (cc0_transform_3 i) (hinb0_3 i)).WholeWords (EltTy.packing .f32)

variable [Facts₀]

def dot_S2048x1000_S2048x512_S1000x512_0_0_1_1_n_n : DotDims S2048x1000 S2048x512 S1000x512 where
  lhsContracting := [0]
  rhsContracting := [0]
  lhsNonContracting := [1]
  rhsNonContracting := [1]
  lhsBatch := []
  rhsBatch := []
  wf := dot_S2048x1000_S2048x512_S1000x512_0_0_1_1_n_n_wf
def scatter_S1000_S100x1_S100_n_0_0_1 : ScatterDims S1000 S100x1 S100 where
  updateWindowDims := []
  insertedWindowDims := [0]
  scatterDimsToOperandDims := [0]
  indexVectorDim := 1
  wf := scatter_S1000_S100x1_S100_n_0_0_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1000x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S100 : Shape := ⟨1, ![100]⟩
abbrev S1000x512 : Shape := ⟨2, ![1000, 512]⟩
abbrev S1000 : Shape := ⟨1, ![1000]⟩
abbrev S_ : Shape := ⟨0, ![]⟩
abbrev S131072x1 : Shape := ⟨2, ![131072, 1]⟩
abbrev S1000x1 : Shape := ⟨2, ![1000, 1]⟩
abbrev S100x1 : Shape := ⟨2, ![100, 1]⟩

abbrev nBuf : Space → Nat
  | .hbm => 90
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S100, .i32⟩
  | .hbm, ⟨3, _⟩ => ⟨S1000x512, .f32⟩
  | .hbm, ⟨4, _⟩ => ⟨S1000x512, .f32⟩
  | .hbm, ⟨5, _⟩ => ⟨S1000, .f32⟩
  | .hbm, ⟨6, _⟩ => ⟨S1000, .f32⟩
  | .hbm, ⟨7, _⟩ => ⟨S131072x512, .f32⟩
  | .hbm, ⟨8, _⟩ => ⟨S_, .f32⟩
  | .hbm, ⟨9, _⟩ => ⟨S131072, .f32⟩
  | .hbm, ⟨10, _⟩ => ⟨S131072x1, .f32⟩
  | .hbm, ⟨11, _⟩ => ⟨S131072x1, .f32⟩
  | .hbm, ⟨12, _⟩ => ⟨S_, .f32⟩
  | .hbm, ⟨13, _⟩ => ⟨S131072x1, .f32⟩
  | .hbm, ⟨14, _⟩ => ⟨S131072x1, .f32⟩
  | .hbm, ⟨15, _⟩ => ⟨S131072x512, .f32⟩
  | .hbm, ⟨16, _⟩ => ⟨S131072x512, .f32⟩
  | .hbm, ⟨17, _⟩ => ⟨S_, .f32⟩
  | .hbm, ⟨18, _⟩ => ⟨S1000x512, .f32⟩
  | .hbm, ⟨19, _⟩ => ⟨S131072x1, .i32⟩
  | .hbm, ⟨20, _⟩ => ⟨S1000x512, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S1000, .f32⟩
  | .hbm, ⟨25, _⟩ => ⟨S131072x1, .i32⟩
  | .hbm, ⟨26, _⟩ => ⟨S1000, .f32⟩
  | .hbm, ⟨27, _⟩ => ⟨S_, .f32⟩
  | .hbm, ⟨28, _⟩ => ⟨S1000, .f32⟩
  | .hbm, ⟨29, _⟩ => ⟨S1000, .i1⟩
  | .hbm, ⟨30, _⟩ => ⟨S_, .f32⟩
  | .hbm, ⟨31, _⟩ => ⟨S1000, .f32⟩
  | .hbm, ⟨32, _⟩ => ⟨S1000, .f32⟩
  | .hbm, ⟨33, _⟩ => ⟨S1000x1, .f32⟩
  | .hbm, ⟨34, _⟩ => ⟨S1000x512, .f32⟩
  | .hbm, ⟨35, _⟩ => ⟨S1000x512, .f32⟩
  | .hbm, ⟨36, _⟩ => ⟨S_, .i1⟩
  | .hbm, ⟨37, _⟩ => ⟨S1000, .i1⟩
  | .hbm, ⟨38, _⟩ => ⟨S_, .i32⟩
  | .hbm, ⟨39, _⟩ => ⟨S100, .i32⟩
  | .hbm, ⟨40, _⟩ => ⟨S100, .i1⟩
  | .hbm, ⟨41, _⟩ => ⟨S_, .i32⟩
  | .hbm, ⟨42, _⟩ => ⟨S100, .i32⟩
  | .hbm, ⟨43, _⟩ => ⟨S100, .i32⟩
  | .hbm, ⟨44, _⟩ => ⟨S100, .i32⟩
  | .hbm, ⟨45, _⟩ => ⟨S100x1, .i32⟩
  | .hbm, ⟨46, _⟩ => ⟨S_, .i1⟩
  | .hbm, ⟨47, _⟩ => ⟨S100, .i1⟩
  | .hbm, ⟨48, _⟩ => ⟨S1000, .i1⟩
  | .hbm, ⟨49, _⟩ => ⟨S1000x512, .f32⟩
  | .hbm, ⟨50, _⟩ => ⟨S1000x512, .f32⟩
  | .hbm, ⟨51, _⟩ => ⟨S_, .f32⟩
  | .hbm, ⟨52, _⟩ => ⟨S1000, .f32⟩
  | .hbm, ⟨53, _⟩ => ⟨S_, .f32⟩
  | .hbm, ⟨54, _⟩ => ⟨S1000, .f32⟩
  | .hbm, ⟨55, _⟩ => ⟨S1000, .f32⟩
  | .hbm, ⟨56, _⟩ => ⟨S1000x512, .f32⟩
  | .hbm, ⟨57, _⟩ => ⟨S1000x512, .f32⟩
  | .hbm, ⟨58, _⟩ => ⟨S_, .f32⟩
  | .hbm, ⟨59, _⟩ => ⟨S1000, .f32⟩
  | .hbm, ⟨60, _⟩ => ⟨S_, .f32⟩
  | .hbm, ⟨61, _⟩ => ⟨S1000, .f32⟩
  | .hbm, ⟨62, _⟩ => ⟨S1000, .f32⟩
  | .hbm, ⟨63, _⟩ => ⟨S1000, .i1⟩
  | .hbm, ⟨64, _⟩ => ⟨S_, .f32⟩
  | .hbm, ⟨65, _⟩ => ⟨S1000, .f32⟩
  | .hbm, ⟨66, _⟩ => ⟨S1000, .i1⟩
  | .hbm, ⟨67, _⟩ => ⟨S1000, .i1⟩
  | .hbm, ⟨68, _⟩ => ⟨S1000, .i1⟩
  | .hbm, ⟨69, _⟩ => ⟨S_, .f32⟩
  | .hbm, ⟨70, _⟩ => ⟨S1000, .f32⟩
  | .hbm, ⟨71, _⟩ => ⟨S1000, .i1⟩
  | .hbm, ⟨72, _⟩ => ⟨S1000, .i1⟩
  | .hbm, ⟨73, _⟩ => ⟨S_, .f32⟩
  | .hbm, ⟨74, _⟩ => ⟨S_, .f32⟩
  | .hbm, ⟨75, _⟩ => ⟨S1000, .f32⟩
  | .hbm, ⟨76, _⟩ => ⟨S1000, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1000, .f32⟩
  | .hbm, ⟨82, _⟩ => ⟨S1000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_cst_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_call1_v0 : Ref sig .tc := ⟨.hbm, 74, rfl⟩
abbrev main_call1_v1 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_cst_16 : Ref sig .tc := ⟨.hbm, 79, rfl⟩
abbrev main_call2_v0 : Ref sig .tc := ⟨.hbm, 80, rfl⟩
abbrev main_call2_v1 : Ref sig .tc := ⟨.hbm, 81, rfl⟩
abbrev main_v48 : Ref sig .tc := ⟨.hbm, 82, rfl⟩
abbrev main_cst_17 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_cst_19 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  bcast_S_S1000x512 : S_.BroadcastsInDim S1000x512 (![] : Fin 0 → Fin S1000x512.rank)
  bcast_S_S131072 : S_.BroadcastsInDim S131072 (![] : Fin 0 → Fin S131072.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S100 : S_.BroadcastsInDim S100 (![] : Fin 0 → Fin S100.rank)
  bcast_S100_S100x1_0 : S100.BroadcastsInDim S100x1 (![0] : Fin 1 → Fin S100x1.rank)
  reducesTo_S1000x512_S1000_d1 : S1000x512.ReducesTo [1] S1000
  reducesTo_S1000_S_d0 : S1000.ReducesTo [0] S_
  scatter_S1000x512_S131072x1_S131072x512_1_0_0_1_wf : ScatterDims.WF S1000x512 S131072x1 S131072x512 [1] [0] [0] 1
  scatter_S1000_S131072x1_S131072_n_0_0_1_wf : ScatterDims.WF S1000 S131072x1 S131072 [] [0] [0] 1
  scatter_S1000_S100x1_S100_n_0_0_1_wf : ScatterDims.WF S1000 S100x1 S100 [] [0] [0] 1

variable [Facts₀]

def scatter_S1000x512_S131072x1_S131072x512_1_0_0_1 : ScatterDims S1000x512 S131072x1 S131072x512 where
  updateWindowDims := [1]
  insertedWindowDims := [0]
  scatterDimsToOperandDims := [0]
  indexVectorDim := 1
  wf := scatter_S1000x512_S131072x1_S131072x512_1_0_0_1_wf
def scatter_S1000_S131072x1_S131072_n_0_0_1 : ScatterDims S1000 S131072x1 S131072 where
  updateWindowDims := []
  insertedWindowDims := [0]
  scatterDimsToOperandDims := [0]
  indexVectorDim := 1
  wf := scatter_S1000_S131072x1_S131072_n_0_0_1_wf
def scatter_S1000_S100x1_S100_n_0_0_1 : ScatterDims S1000 S100x1 S100 where
  updateWindowDims := []
  insertedWindowDims := [0]
  scatterDimsToOperandDims := [0]
  indexVectorDim := 1
  wf := scatter_S1000_S100x1_S100_n_0_0_1_wf

class Facts : Prop extends Facts₀ where

variable [Facts]
-- ==== Proof.KernelFrame.Base.lean ====
/-
  The part of the run of `Kernel` that does not depend on what the kernel body computes.

  The program is a short stretch of host operations (the labels clamped to the class range and laid out as a
  column), ONE pipelined kernel launch over a 2 × 32 grid, and a long stretch of host operations that only read the
  launch's two result arrays and the remaining arguments and write buffers of their own. Here: the contents of
  every buffer when the launch is entered (the fold of the earlier operations over the launch memory); that the
  later operations touch only buffers that bypass the launch, allocate nothing and write none of the launch's
  arrays; that no host operation writes an argument; the block of each window's array that a grid point sees; the
  closed form of the body's one branch (the accumulators are reset exactly at the points whose second grid coordinate
  is zero: the points 0 and 32 of the 64); and how the claim "terminates, faults nowhere, arguments unchanged" follows
  from a run that names every array after the launch.
-/
import proofs.«101863_j34806414967394_2_alg».proof.Proof.Gen.Kernel.Launch
import proofs.«101863_j34806414967394_2_alg».proof.Proof.Gen.Kernel.Skeleton
import proofs.«101863_j34806414967394_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- A property of every operation of five lists holds of every operation of every list among them. -/
theorem forall_mem5 {α : Type} {p : α → Prop} (l1 l2 l3 l4 l5 : List α) (h1 : l1.Forall p) (h2 : l2.Forall p) (h3 : l3.Forall p)
    (h4 : l4.Forall p) (h5 : l5.Forall p) : ∀ ops ∈ [l1, l2, l3, l4, l5], ∀ op ∈ ops, p op := by
  intro ops hops op hop
  simp only [List.mem_cons, List.mem_nil_iff, or_false] at hops
  rcases hops with rfl | rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop

/-- Core `c`'s buffer contents when the launch is entered: the earlier host operations folded over the launch memory. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is: the earlier host operations, the launch, the later host operations; so it reduces to the launch continued by
    the later ones, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4].map StableHlo.seq)) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- The later operations touch only the launch's arrays and the buffers that bypass it. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ :=
  forall_mem5 _ _ _ _ _ hostOps1_fresh hostOps1_1_fresh hostOps1_2_fresh hostOps1_3_fresh hostOps1_4_fresh

/-- No operation of this stretch writes an array of the launch: each writes only its own result buffer. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- The later operations write no array of the launch. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  forall_mem5 _ _ _ _ _ hostOps1_keeps hostOps1_1_keeps hostOps1_2_keeps hostOps1_3_keeps hostOps1_4_keeps

/-! ## No host operation writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The claim about the arguments from a run that names every array -/

/-- From a run whose final state has every array of the launch at what the proof data computes and every other
    buffer as the later operations leave it: the features' array is a staged input (its blocks are written back
    nowhere), the other arguments bypass the launch and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## The body's branch -/

/-- The body's one branch, from the grid coordinates: "the second coordinate is zero". -/
abbrev cond0_0 (i : grid0.Coords) : Prop := (Scalar.cmpi .ne (Scalar.extui (Scalar.cmpi .eq (BitVec.ofNat 32 (i 1).val) 0#32)) 0#32) = 1#1
/-- It holds exactly at the first point of each half of the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs -/

/-- One staging buffer of each output window, through which its contents are stated (the choice does not matter). -/
abbrev VO0_2 : View sig .tc .vmem S1x1000x512 .f32 := (Memref.whole cc0_stg2_0 : Memref sig .tc .vmem S1x1000x512 .f32).view
abbrev VO0_3 : View sig .tc .vmem S1x1x1000 .f32 := (Memref.whole cc0_stg3_0 : Memref sig .tc .vmem S1x1x1000 .f32).view
/-- Each window's current staging memref at point `t`, as the pipeline passes it, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1000 .f32 := win0_3.stage (cfg0.slots t 3)
abbrev hs0_3 (t : Fin cfg0.N) : (ms0_3 t).IsWhole := hstage0_3 ((cfg0.slots t 3).cast nbuf0_3)

end Cert.Kernel.Fr

end
-- ==== Proof.KernelFrame.RunA.lean ====
/-
  The kernel body at a grid point whose second coordinate is zero (the branch taken): both accumulators are first
  overwritten with zeros, then the point's block of rows is folded in. Each output's staging buffer ends as a list of
  whole-block stores (the last one first); the run below finds those lists, holding the two input blocks unchanged
  and asking nothing of what the output buffers held before.
-/
import proofs.«101863_j34806414967394_2_alg».proof.Proof.KernelFrame.Base

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- What the body's stores leave in each output's staging memref, as pieces (last first), with the proof that on whole
    staging memrefs the body runs to the continuation holding the inputs' as they were and each output's buffer with
    its pieces written. -/
noncomputable def kernelRun0_A (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) :
    Σ' (L2 : List (View.Piece (Elt F) S1x1000x512 .f32)), { L3 : List (View.Piece (Elt F) S1x1x1000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Fr

end
-- ==== Proof.KernelFrame.RunB.lean ====
/-
  The kernel body at a grid point whose second coordinate is not zero (the branch not taken): the point's block of
  rows is folded into the accumulators as the point before left them. Each output's staging buffer ends as one
  whole-block store over its running contents; the run below finds it, holding the two input blocks unchanged.
-/
import proofs.«101863_j34806414967394_2_alg».proof.Proof.KernelFrame.RunA

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- What the body's stores leave in each output's staging memref, as pieces (last first), with the proof that on whole
    staging memrefs the body runs to the continuation holding the inputs' as they were and each output's buffer with
    its pieces written. -/
noncomputable def kernelRun0_B (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) :
    Σ' (L2 : List (View.Piece (Elt F) S1x1000x512 .f32)), { L3 : List (View.Piece (Elt F) S1x1x1000 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Fr

end
-- ==== Proof.KernelFrame.Frame.lean ====
/-
  The run of `Kernel` with every array after the launch named, and the claim that it terminates, faults nowhere and
  leaves its arguments unchanged.

  The two outputs of the kernel are accumulators: the block of output array `p` (one per half of the grid) is held
  in a staging buffer over the 32 points of that half, reset at the half's first point, added to at every point, and
  written back once, after the half's last point. What the two staging buffers hold after each point is therefore
  defined by recursion on the point: at a point whose second coordinate is zero, what the "reset" case of the body
  leaves from the point's two input blocks; at any other point, what the "accumulate" case leaves from the input
  blocks and from what the point before left (the buffer is not written back in between). With that as proof data the
  body's triple holds at every point, and the pipeline library's run theorem for "host operations, one launch, host
  operations" gives the run.
-/
import proofs.«101863_j34806414967394_2_alg».proof.Proof.KernelFrame.RunB

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores the body makes into this output's buffer in this case tile its block, so they cover it. -/
theorem cover0_A_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) (y : S1x1000x512.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1000x512.size (by sl_kernel_rfl) y

/-- What this case leaves in this output's staging buffer: its stores read back. -/
def out0_A_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) : Vec F S1x1000x512 .f32 :=
  VO0_2.read (Elt F) (VO0_2.writes (Elt F) VO0_2.junk (kernelRun0_A c i arg2 harg2 arg3 harg3 arg4 harg4 arg5 harg5 hc0 x0 x1).1)

/-- The stores the body makes into this output's buffer in this case tile its block, so they cover it. -/
theorem cover0_A_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) (y : S1x1x1000.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1000.size (by sl_kernel_rfl) y

/-- What this case leaves in this output's staging buffer: its stores read back. -/
def out0_A_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) : Vec F S1x1x1000 .f32 :=
  VO0_3.read (Elt F) (VO0_3.writes (Elt F) VO0_3.junk (kernelRun0_A c i arg2 harg2 arg3 harg3 arg4 harg4 arg5 harg5 hc0 x0 x1).2.1)

/-- The stores the body makes into this output's buffer in this case tile its block, so they cover it. -/
theorem cover0_B_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) (y : S1x1000x512.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1000x512.size (by sl_kernel_rfl) y

/-- What this case leaves in this output's staging buffer: its stores read back. -/
def out0_B_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) : Vec F S1x1000x512 .f32 :=
  VO0_2.read (Elt F) (VO0_2.writes (Elt F) VO0_2.junk (kernelRun0_B c i arg2 harg2 arg3 harg3 arg4 harg4 arg5 harg5 hc0 x0 x1 xo2 xo3).1)

/-- The stores the body makes into this output's buffer in this case tile its block, so they cover it. -/
theorem cover0_B_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) (y : S1x1x1000.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1000.size (by sl_kernel_rfl) y

/-- What this case leaves in this output's staging buffer: its stores read back. -/
def out0_B_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) : Vec F S1x1x1000 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- What the two outputs' staging buffers hold after the body at position `n`: the case the closed form selects, run at the
    point's memrefs and input blocks, over what the point before left when the accumulators are not reset. -/
def outsAt0 (c : Dev nD) : (n : ℕ) → n < cfg0.N → Vec F S1x1000x512 .f32 × Vec F S1x1x1000 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a point where the accumulators are reset. -/
theorem outsAt0_A (c : Dev nD) (t : Fin cfg0.N) (h0 : t.val % 32 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: over what the point before left. -/
theorem outsAt0_B (c : Dev nD) (t : Fin cfg0.N) (h0 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the outputs'
    at `outsAt0`; the invariant the class's (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Where the accumulators are not reset an output's current staging buffer holds what the body left at the point before:
    the point is not the first and the buffer was not written back in between. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in; where the
    accumulators are not reset they hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 32 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the claim about the arguments -/

-- the run theorem's implicit arguments are found by unifying its conclusion with this one, which takes unfolding plain
-- definitions in a metavariable's type
set_option backward.isDefEq.respectTransparency.types false in
/-- For any values, from any memory with zero counters: every weakly fair execution of @main terminates, and every final state
    has every array of the launch at what the library computes from the proof data and every other unscoped buffer as the
    later host operations leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The program terminates, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Fr

end
-- ==== Proof.KernelIdealFrame.Base.lean ====
/-
  The part of the run of `KernelIdeal` that does not depend on what the kernel body computes.

  The program is a short stretch of host operations (the labels clamped to the class range and laid out as a
  column), ONE pipelined kernel launch over a 2 × 32 grid, and a long stretch of host operations that only read the
  launch's two result arrays and the remaining arguments and write buffers of their own. Here: the contents of
  every buffer when the launch is entered (the fold of the earlier operations over the launch memory); that the
  later operations touch only buffers that bypass the launch, allocate nothing and write none of the launch's
  arrays; that no host operation writes an argument; the block of each window's array that a grid point sees; the
  closed form of the body's one branch (the accumulators are reset exactly at the points whose second grid coordinate
  is zero: the points 0 and 32 of the 64); and how the claim "terminates, faults nowhere, arguments unchanged" follows
  from a run that names every array after the launch.
-/
import proofs.«101863_j34806414967394_2_alg».proof.Proof.Gen.KernelIdeal.Launch
import proofs.«101863_j34806414967394_2_alg».proof.Proof.Gen.KernelIdeal.Skeleton
import proofs.«101863_j34806414967394_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the launch -/

/-- A property of every operation of five lists holds of every operation of every list among them. -/
theorem forall_mem5 {α : Type} {p : α → Prop} (l1 l2 l3 l4 l5 : List α) (h1 : l1.Forall p) (h2 : l2.Forall p) (h3 : l3.Forall p)
    (h4 : l4.Forall p) (h5 : l5.Forall p) : ∀ ops ∈ [l1, l2, l3, l4, l5], ∀ op ∈ ops, p op := by
  intro ops hops op hop
  simp only [List.mem_cons, List.mem_nil_iff, or_false] at hops
  rcases hops with rfl | rfl | rfl | rfl | rfl
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop

/-- Core `c`'s buffer contents when the launch is entered: the earlier host operations folded over the launch memory. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is: the earlier host operations, the launch, the later host operations; so it reduces to the launch continued by
    the later ones, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2, hostOps1_3, hostOps1_4].map StableHlo.seq)) :=
  Pipeline.hmain_around cfgs 0 defs₀ 𝒱₀ m main [hostOps0, hostOps0_1, hostOps0_2] [hostOps1, hostOps1_1, hostOps1_2, hostOps1_3, hostOps1_4]
    (by simp only [List.Forall]; exact ⟨hostOps0_sub, hostOps0_1_sub, hostOps0_2_sub⟩)
    (by simp only [List.Forall]; exact ⟨hostOps0_fresh, hostOps0_1_fresh, hostOps0_2_fresh⟩) main_chain

/-- The later operations touch only the launch's arrays and the buffers that bypass it. -/
theorem sfx_sub : ∀ ops ∈ ([hostOps1, hostOps1_1, hostOps1_2, hostOps1_3, hostOps1_4] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ ([hostOps1, hostOps1_1, hostOps1_2, hostOps1_3, hostOps1_4] : List (List (HloOp τ sig (Elt F)))), ∀ op ∈ ops, op.fresh = ∅ :=
  forall_mem5 _ _ _ _ _ hostOps1_fresh hostOps1_1_fresh hostOps1_2_fresh hostOps1_3_fresh hostOps1_4_fresh

/-- No operation of this stretch writes an array of the launch: each writes only its own result buffer. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_3_keeps : (hostOps1_3 : List (HloOp τ sig (Elt F))).Forall fun op => ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
/-- No operation of this stretch writes an array of the launch: each writes only its own result buffer. -/
theorem hostOps1_4_keeps : (hostOps1_4 : List (HloOp τ sig (Elt F))).Forall fun op => ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- The later operations write no array of the launch. -/
theorem sfx_keeps : ∀ ops ∈ ([hostOps1, hostOps1_1, hostOps1_2, hostOps1_3, hostOps1_4] : List (List (HloOp τ sig (Elt F)))), ∀ op ∈ ops,
    ∀ w, Proc.devRef .tc (Pipeline.arrRef spec0 w) ∉ op.writes :=
  forall_mem5 _ _ _ _ _ hostOps1_keeps hostOps1_1_keeps hostOps1_2_keeps hostOps1_3_keeps hostOps1_4_keeps

/-! ## No host operation writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, hostOps1_1, hostOps1_2, hostOps1_3, hostOps1_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The claim about the arguments from a run that names every array -/

/-- From a run whose final state has every array of the launch at what the proof data computes and every other
    buffer as the later operations leave it: the features' array is a staged input (its blocks are written back
    nowhere), the other arguments bypass the launch and no later operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c)⟩) h

/-! ## The body's branch -/

/-- The body's one branch, from the grid coordinates: "the second coordinate is zero". -/
abbrev cond0_0 (i : grid0.Coords) : Prop := (Scalar.cmpi .ne (Scalar.extui (Scalar.cmpi .eq (BitVec.ofNat 32 (i 1).val) 0#32)) 0#32) = 1#1
/-- It holds exactly at the first point of each half of the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs -/

/-- One staging buffer of each output window, through which its contents are stated (the choice does not matter). -/
abbrev VO0_2 : View sig .tc .vmem S1x1000x512 .f32 := (Memref.whole cc0_stg2_0 : Memref sig .tc .vmem S1x1000x512 .f32).view
abbrev VO0_3 : View sig .tc .vmem S1x1x1000 .f32 := (Memref.whole cc0_stg3_0 : Memref sig .tc .vmem S1x1x1000 .f32).view
/-- Each window's current staging memref at point `t`, as the pipeline passes it, and its wholeness. -/
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1000x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1000 .f32 := win0_3.stage (cfg0.slots t 3)
abbrev hs0_3 (t : Fin cfg0.N) : (ms0_3 t).IsWhole := hstage0_3 ((cfg0.slots t 3).cast nbuf0_3)

end Cert.KernelIdeal.Fr

end
-- ==== Proof.KernelIdealFrame.RunA.lean ====
/-
  The kernel body at a grid point whose second coordinate is zero (the branch taken): both accumulators are first
  overwritten with zeros, then the point's block of rows is folded in. Each output's staging buffer ends as a list of
  whole-block stores (the last one first); the run below finds those lists, holding the two input blocks unchanged
  and asking nothing of what the output buffers held before.
-/
import proofs.«101863_j34806414967394_2_alg».proof.Proof.KernelIdealFrame.Base

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- What the body's stores leave in each output's staging memref, as pieces (last first), with the proof that on whole
    staging memrefs the body runs to the continuation holding the inputs' as they were and each output's buffer with
    its pieces written. -/
noncomputable def kernelRun0_A (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) :
    Σ' (L2 : List (View.Piece (Elt F) S1x1000x512 .f32)), { L3 : List (View.Piece (Elt F) S1x1x1000 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Fr

end
-- ==== Proof.KernelIdealFrame.RunB.lean ====
/-
  The kernel body at a grid point whose second coordinate is not zero (the branch not taken): the point's block of
  rows is folded into the accumulators as the point before left them. Each output's staging buffer ends as one
  whole-block store over its running contents; the run below finds it, holding the two input blocks unchanged.
-/
import proofs.«101863_j34806414967394_2_alg».proof.Proof.KernelIdealFrame.RunA

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue walks it past the default budget)
set_option maxHeartbeats 4000000 in
/-- What the body's stores leave in each output's staging memref, as pieces (last first), with the proof that on whole
    staging memrefs the body runs to the continuation holding the inputs' as they were and each output's buffer with
    its pieces written. -/
noncomputable def kernelRun0_B (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) :
    Σ' (L2 : List (View.Piece (Elt F) S1x1000x512 .f32)), { L3 : List (View.Piece (Elt F) S1x1x1000 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__scatter_mean_kernel i arg2 harg2 arg3 harg3 arg4 harg4 arg5 harg5) K } := by
  refine ⟨?_, ?_, fun E K => ?run⟩
  case run =>
    simp only [cc0__scatter_mean_kernel_eq_skeleton]; unfold cc0__scatter_mean_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Fr

end
-- ==== Proof.KernelIdealFrame.Frame.lean ====
/-
  The run of `KernelIdeal` with every array after the launch named, and the claim that it terminates, faults nowhere and
  leaves its arguments unchanged.

  The two outputs of the kernel are accumulators: the block of output array `p` (one per half of the grid) is held
  in a staging buffer over the 32 points of that half, reset at the half's first point, added to at every point, and
  written back once, after the half's last point. What the two staging buffers hold after each point is therefore
  defined by recursion on the point: at a point whose second coordinate is zero, what the "reset" case of the body
  leaves from the point's two input blocks; at any other point, what the "accumulate" case leaves from the input
  blocks and from what the point before left (the buffer is not written back in between). With that as proof data the
  body's triple holds at every point, and the pipeline library's run theorem for "host operations, one launch, host
  operations" gives the run.
-/
import proofs.«101863_j34806414967394_2_alg».proof.Proof.KernelIdealFrame.RunB

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores the body makes into this output's buffer in this case tile its block, so they cover it. -/
theorem cover0_A_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) (y : S1x1000x512.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1000x512.size (by sl_kernel_rfl) y

/-- What this case leaves in this output's staging buffer: its stores read back. -/
def out0_A_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) : Vec F S1x1000x512 .f32 :=
  VO0_2.read (Elt F) (VO0_2.writes (Elt F) VO0_2.junk (kernelRun0_A c i arg2 harg2 arg3 harg3 arg4 harg4 arg5 harg5 hc0 x0 x1).1)

/-- The stores the body makes into this output's buffer in this case tile its block, so they cover it. -/
theorem cover0_A_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) (y : S1x1x1000.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1000.size (by sl_kernel_rfl) y

/-- What this case leaves in this output's staging buffer: its stores read back. -/
def out0_A_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) : Vec F S1x1x1000 .f32 :=
  VO0_3.read (Elt F) (VO0_3.writes (Elt F) VO0_3.junk (kernelRun0_A c i arg2 harg2 arg3 harg3 arg4 harg4 arg5 harg5 hc0 x0 x1).2.1)

/-- The stores the body makes into this output's buffer in this case tile its block, so they cover it. -/
theorem cover0_B_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) (y : S1x1000x512.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1000x512.size (by sl_kernel_rfl) y

/-- What this case leaves in this output's staging buffer: its stores read back. -/
def out0_B_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) : Vec F S1x1000x512 .f32 :=
  VO0_2.read (Elt F) (VO0_2.writes (Elt F) VO0_2.junk (kernelRun0_B c i arg2 harg2 arg3 harg3 arg4 harg4 arg5 harg5 hc0 x0 x1 xo2 xo3).1)

/-- The stores the body makes into this output's buffer in this case tile its block, so they cover it. -/
theorem cover0_B_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) (y : S1x1x1000.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1000.size (by sl_kernel_rfl) y

/-- What this case leaves in this output's staging buffer: its stores read back. -/
def out0_B_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) : Vec F S1x1x1000 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- What the two outputs' staging buffers hold after the body at position `n`: the case the closed form selects, run at the
    point's memrefs and input blocks, over what the point before left when the accumulators are not reset. -/
def outsAt0 (c : Dev nD) : (n : ℕ) → n < cfg0.N → Vec F S1x1000x512 .f32 × Vec F S1x1x1000 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩),
              out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 32 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At a point where the accumulators are reset. -/
theorem outsAt0_A (c : Dev nD) (t : Fin cfg0.N) (h0 : t.val % 32 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
      out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At any other point: over what the point before left. -/
theorem outsAt0_B (c : Dev nD) (t : Fin cfg0.N) (h0 : ¬t.val % 32 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2,
      out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body at point `t` each input's buffer at its block and the outputs'
    at `outsAt0`; the invariant the class's (the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- Where the accumulators are not reset an output's current staging buffer holds what the body left at the point before:
    the point is not the first and the buffer was not written back in between. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in; where the
    accumulators are not reset they hold what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt (show cfg0.N = 64 from N_0)
  by_cases h0 : t.val % 32 = 0
  · rw [outsAt0_A m c t h0]
    dsimp only
    unfold out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    dsimp only
    simp only [before0_2_B m c t h0, before0_3_B m c t h0]
    unfold out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the claim about the arguments -/

-- the run theorem's implicit arguments are found by unifying its conclusion with this one, which takes unfolding plain
-- definitions in a metavariable's type
set_option backward.isDefEq.respectTransparency.types false in
/-- For any values, from any memory with zero counters: every weakly fair execution of @main terminates, and every final state
    has every array of the launch at what the library computes from the proof data and every other unscoped buffer as the
    later host operations leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The program terminates, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Fr

end
-- ==== Proof.Tail.lean ====
/-
  The common closing computation of both programs, stated once for any float values.

  Given the table of per-class sums (1000 classes by 512 features), the per-class counts, a one-bit mask over the
  classes, two prototype tables and two count vectors: a class is present when its count is positive; the class mean
  is the class sum divided by the larger of the count and one; for each prototype table the mean over the 512
  features of the squared difference to the class mean is taken; a class is active for a table when it is masked,
  present and its count in the matching count vector is positive; the inactive classes contribute zero; the result is
  one half of the first table's total plus three tenths of the second table's total.
-/
import Idealize.ShloMosaic.PureOps

noncomputable section

namespace Cert.Tail

open Idealize.ShloMosaic

/-- The closing computation: from the class sums `sum`, the class counts `cnt`, the class mask `cur`, the prototype
    tables `a3`, `a4` and the count vectors `a5`, `a6` to the weighted total of the two masked mean squared errors. -/
noncomputable def tail {F : FTy → Type} [FloatOps F]
    (sum : FVec F ⟨2, ![1000, 512]⟩ .f32) (cnt : FVec F ⟨1, ![1000]⟩ .f32) (cur : IVec ⟨1, ![1000]⟩ 1)
    (a3 a4 : FVec F ⟨2, ![1000, 512]⟩ .f32) (a5 a6 : FVec F ⟨1, ![1000]⟩ .f32) : FVec F ⟨0, ![]⟩ .f32 :=
  -- a class is present when its count is positive
  let cst_3 : FVec F ⟨0, ![]⟩ .f32 := constant (F := F) ⟨0, ![]⟩ .f32 0x00000000#32
  let v12 : FVec F ⟨1, ![1000]⟩ .f32 := broadcastInDim (s := ⟨0, ![]⟩) ⟨1, ![1000]⟩ ![] (by decide) cst_3
  let v13 : IVec ⟨1, ![1000]⟩ 1 := cmpf (F := F) .ogt cnt v12
  -- the class mean: the sum over the larger of the count and one
  let cst_4 : FVec F ⟨0, ![]⟩ .f32 := constant (F := F) ⟨0, ![]⟩ .f32 0x3F800000#32
  let v14 : FVec F ⟨1, ![1000]⟩ .f32 := broadcastInDim (s := ⟨0, ![]⟩) ⟨1, ![1000]⟩ ![] (by decide) cst_4
  let v15 : FVec F ⟨1, ![1000]⟩ .f32 := maximumf cnt v14
  let v16 : FVec F ⟨2, ![1000, 1]⟩ .f32 := broadcastInDim (s := ⟨1, ![1000]⟩) ⟨2, ![1000, 1]⟩ ![0] (by decide) v15
  let v17 : FVec F ⟨2, ![1000, 512]⟩ .f32 :=
    broadcastInDim (s := ⟨2, ![1000, 1]⟩) ⟨2, ![1000, 512]⟩ ![0, 1] (by decide) v16
  let v18 : FVec F ⟨2, ![1000, 512]⟩ .f32 := Host.divf sum v17
  -- the mean squared error against the first prototype table
  let v28 : FVec F ⟨2, ![1000, 512]⟩ .f32 := subf v18 a3
  let v29 : FVec F ⟨2, ![1000, 512]⟩ .f32 := mulf v28 v28
  let cst_8 : FVec F ⟨0, ![]⟩ .f32 := constant (F := F) ⟨0, ![]⟩ .f32 0x00000000#32
  let v30 : FVec F ⟨1, ![1000]⟩ .f32 :=
    Host.reduceAdd (s := ⟨2, ![1000, 512]⟩) (axes := [1]) (t := ⟨1, ![1000]⟩) v29 cst_8 (by decide) (by decide)
  let cst_9 : FVec F ⟨0, ![]⟩ .f32 := constant (F := F) ⟨0, ![]⟩ .f32 0x44000000#32
  let v31 : FVec F ⟨1, ![1000]⟩ .f32 := broadcastInDim (s := ⟨0, ![]⟩) ⟨1, ![1000]⟩ ![] (by decide) cst_9
  let v32 : FVec F ⟨1, ![1000]⟩ .f32 := Host.divf v30 v31
  -- the mean squared error against the second prototype table
  let v33 : FVec F ⟨2, ![1000, 512]⟩ .f32 := subf v18 a4
  let v34 : FVec F ⟨2, ![1000, 512]⟩ .f32 := mulf v33 v33
  let cst_10 : FVec F ⟨0, ![]⟩ .f32 := constant (F := F) ⟨0, ![]⟩ .f32 0x00000000#32
  let v35 : FVec F ⟨1, ![1000]⟩ .f32 :=
    Host.reduceAdd (s := ⟨2, ![1000, 512]⟩) (axes := [1]) (t := ⟨1, ![1000]⟩) v34 cst_10 (by decide) (by decide)
  let cst_11 : FVec F ⟨0, ![]⟩ .f32 := constant (F := F) ⟨0, ![]⟩ .f32 0x44000000#32
  let v36 : FVec F ⟨1, ![1000]⟩ .f32 := broadcastInDim (s := ⟨0, ![]⟩) ⟨1, ![1000]⟩ ![] (by decide) cst_11
  let v37 : FVec F ⟨1, ![1000]⟩ .f32 := Host.divf v35 v36
  -- active for the first table: masked, present, and the first count vector positive
  let v38 : IVec ⟨1, ![1000]⟩ 1 := andi cur v13
  let cst_12 : FVec F ⟨0, ![]⟩ .f32 := constant (F := F) ⟨0, ![]⟩ .f32 0x00000000#32
  let v39 : FVec F ⟨1, ![1000]⟩ .f32 := broadcastInDim (s := ⟨0, ![]⟩) ⟨1, ![1000]⟩ ![] (by decide) cst_12
  let v40 : IVec ⟨1, ![1000]⟩ 1 := cmpf (F := F) .ogt a5 v39
  let v41 : IVec ⟨1, ![1000]⟩ 1 := andi v38 v40
  -- active for the second table
  let v42 : IVec ⟨1, ![1000]⟩ 1 := andi cur v13
  let cst_13 : FVec F ⟨0, ![]⟩ .f32 := constant (F := F) ⟨0, ![]⟩ .f32 0x00000000#32
  let v43 : FVec F ⟨1, ![1000]⟩ .f32 := broadcastInDim (s := ⟨0, ![]⟩) ⟨1, ![1000]⟩ ![] (by decide) cst_13
  let v44 : IVec ⟨1, ![1000]⟩ 1 := cmpf (F := F) .ogt a6 v43
  let v45 : IVec ⟨1, ![1000]⟩ 1 := andi v42 v44
  -- the inactive classes contribute zero; total over the classes
  let cst_14 : FVec F ⟨0, ![]⟩ .f32 := constant (F := F) ⟨0, ![]⟩ .f32 0x00000000#32
  let v46 : FVec F ⟨1, ![1000]⟩ .f32 :=
    select v41 v32 (broadcastInDim (s := ⟨0, ![]⟩) ⟨1, ![1000]⟩ ![] (by decide) (id cst_14))
  let cst_15 : FVec F ⟨0, ![]⟩ .f32 := constant (F := F) ⟨0, ![]⟩ .f32 0x00000000#32
  let v47 : FVec F ⟨0, ![]⟩ .f32 :=
    Host.reduceAdd (s := ⟨1, ![1000]⟩) (axes := [0]) (t := ⟨0, ![]⟩) v46 cst_15 (by decide) (by decide)
  let cst_16 : FVec F ⟨0, ![]⟩ .f32 := constant (F := F) ⟨0, ![]⟩ .f32 0x00000000#32
  let v48 : FVec F ⟨1, ![1000]⟩ .f32 :=
    select v45 v37 (broadcastInDim (s := ⟨0, ![]⟩) ⟨1, ![1000]⟩ ![] (by decide) (id cst_16))
  let cst_17 : FVec F ⟨0, ![]⟩ .f32 := constant (F := F) ⟨0, ![]⟩ .f32 0x00000000#32
  let v49 : FVec F ⟨0, ![]⟩ .f32 :=
    Host.reduceAdd (s := ⟨1, ![1000]⟩) (axes := [0]) (t := ⟨0, ![]⟩) v48 cst_17 (by decide) (by decide)
  -- one half of the first total plus three tenths of the second
  let cst_18 : FVec F ⟨0, ![]⟩ .f32 := constant (F := F) ⟨0, ![]⟩ .f32 0x3F000000#32
  let v50 : FVec F ⟨0, ![]⟩ .f32 := mulf cst_18 v47
  let cst_19 : FVec F ⟨0, ![]⟩ .f32 := constant (F := F) ⟨0, ![]⟩ .f32 0x3E99999A#32
  let v51 : FVec F ⟨0, ![]⟩ .f32 := mulf cst_19 v49
  addf v50 v51

end Cert.Tail

end
-- ==== Proof.KernelIdealValue.TailK.lean ====
/-
  The idealized kernel's program after its launch: the long stretch of host operations is ONE fixed function
  (`Cert.Tail.tail`) of the two result arrays summed over their leading axis of length two (one slab per half of the
  grid), of the mask of current classes, and of the remaining arguments. Nothing of that function is opened here.
-/
import proofs.«101863_j34806414967394_2_alg».proof.Proof.KernelIdealFrame.Frame
import proofs.«101863_j34806414967394_2_alg».proof.Proof.Tail
import Idealize.ShloMosaic.Lib.StableHlo.Run
import Idealize.ShloMosaic.PureOps.Ideal

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- Core `c`'s buffer `b` when the later host operations start: the launch's arrays at what the launch left, every
    other buffer as the launch found it. -/
abbrev WA (c : Dev nD) (b : Ref sig .tc) :=
  Pipeline.withArrays (cfgs 0).spec c (V0 m c) (fun w => (dats m 0 c).arrAt w (cfgs 0).N) (Proc.devRef .tc b)

/-- The mask of current classes as this program computes it: `true` scattered into a `false` mask at the class
    indices, a negative index first wrapped by the number of classes. -/
def curK (a2 : IVec S100 32) : IVec S1000 1 :=
  Host.scatter scatter_S1000_S100x1_S100_n_0_0_1 (fun _ b => b)
    (broadcastInDim S1000 ![] bcast_S_S1000 (constantI S_ 1 0#1))
    (broadcastInDim S100x1 ![0] bcast_S100_S100x1_0
      (select (cmpi .slt a2 (broadcastInDim S100 ![] bcast_S_S100 (constantI S_ 32 0#32)))
        (addi a2 (broadcastInDim S100 ![] bcast_S_S100 (constantI S_ 32 1000#32))) a2))
    (broadcastInDim S100 ![] bcast_S_S100 (constantI S_ 1 1#1))

set_option maxHeartbeats 4000000 in
/-- The result buffer after the later host operations, as the fixed function of what they start from. -/
theorem tail_WA (c : Dev nD) :
    Pipeline.afterTail₀ cfgs (dats m) 0 (V0 m) [hostOps1, hostOps1_1, hostOps1_2, hostOps1_3, hostOps1_4] c main_v46
      = Cert.Tail.tail (F := Ideal)
          (Host.reduceAdd (WA m c main_v2_0) (constant S_ .f32 0x00000000#32) reducesTo_S2x1000x512_S1000x512_d0 h_S_)
          (shapeCast S1000 (Host.reduceAdd (WA m c main_v2_1) (constant S_ .f32 0x00000000#32) reducesTo_S2x1x1000_S1x1000_d0 h_S_) shapeCasts_S1x1000_S1000)
          (curK (WA m c main_arg2)) (WA m c main_arg3) (WA m c main_arg4) (WA m c main_arg5) (WA m c main_arg6) := by
  unfold Pipeline.afterTail₀
  simp only [hostOps1, hostOps1_1, hostOps1_2, hostOps1_3, hostOps1_4, List.flatten_cons, List.flatten_nil, List.append_nil, List.cons_append, List.nil_append]
  after_results_simp
  unfold Cert.Tail.tail curK
  rfl

end Cert.KernelIdeal.Val

end
-- ==== Proof.LibScatterRows.lean ====
/-
  An accumulating scatter whose indices name rows, read at one element.

  The updates are a table of 131072 rows; row `n` of the updates is added to row `idx n` of the operand, the index
  word read as a signed integer, and a row whose index is outside the operand's 1000 rows is dropped. At the exact
  (extended real) values the result at class `c`, feature `e` is therefore the operand there plus the sum, over the
  rows `n` whose index is `c`, of the update at `(n, e)`. The rank-one twin adds one number per row.
-/
import Idealize.ShloMosaic.PureOps.Ideal
import Idealize.ShloMosaic.Lib.ValueIdx

noncomputable section

open scoped BigOperators

namespace Cert.LibScatterRows

open Idealize.ShloMosaic Idealize.ShloMosaic.ValueIdx

section Rows

variable (d : ScatterDims ⟨2, ![1000, 512]⟩ ⟨2, ![131072, 1]⟩ ⟨2, ![131072, 512]⟩)

/-- Where update element `(n, e')` lands: at `(c, e)` exactly when row `n`'s index word, read signed, is `c` and
    `e' = e`. -/
theorem resultIdx?_rows (h1 : d.updateWindowDims = [1]) (h2 : d.insertedWindowDims = [0])
    (h3 : d.scatterDimsToOperandDims = [0]) (h4 : d.indexVectorDim = 1) {w : Nat}
    (idx : IVec ⟨2, ![131072, 1]⟩ w) (n : Fin 131072) (e' : Fin 512) (c : Fin 1000) (e : Fin 512) :
    d.resultIdx? (ix2 n e') idx = some (ix2 c e) ↔ (idx (ix2 n (0 : Fin 1))).toInt = (c.val : ℤ) ∧ e' = e := by
  obtain ⟨uw, iw, sd, iv, wf⟩ := d
  simp only at h1 h2 h3 h4
  subst h1 h2 h3 h4
  have hs0 : ScatterDims.start ⟨[1], [0], [0], 1, wf⟩ (ix2 n e') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n e') idx 1 = 0 := by
    unfold ScatterDims.start
    rw [dif_neg (show (1 : Fin 2) ∉ ([0] : List (Fin 2)) by decide)]
  have hw0 : ScatterDims.window ⟨[1], [0], [0], 1, wf⟩ (ix2 n e') 0 = 0 := by
    unfold ScatterDims.window
    rw [dif_neg (show (0 : Fin 2) ∉ (⟨2, ![1000, 512]⟩ : Shape).kept [0] by decide)]
  have hw1 : ScatterDims.window ⟨[1], [0], [0], 1, wf⟩ (ix2 n e') 1 = e'.val := by
    unfold ScatterDims.window
    rw [dif_pos (show (1 : Fin 2) ∈ (⟨2, ![1000, 512]⟩ : Shape).kept [0] by decide)]
    rfl
  unfold ScatterDims.resultIdx?
  simp only [Fin.forall_fin_two, hs0, hs1, hw0, hw1]
  have hc0 : (ix2 c e (0 : Fin 2)) = c := rfl
  have hc1 : (ix2 c e (1 : Fin 2)) = e := rfl
  have hz0 : ((![1000, 512] : Fin 2 → ℕ) 0) = 1000 := rfl
  have hz1 : ((![1000, 512] : Fin 2 → ℕ) 1) = 512 := rfl
  have hc := c.isLt
  have he := e.isLt
  have he' := e'.isLt
  by_cases hcond : ((0 ≤ (idx (ix2 n (0 : Fin 1))).toInt + ((0 : ℕ) : ℤ) ∧ (idx (ix2 n (0 : Fin 1))).toInt + ((0 : ℕ) : ℤ) < (((![1000, 512] : Fin 2 → ℕ) 0 : ℕ) : ℤ)) ∧
            0 ≤ (0 : ℤ) + ((e'.val : ℕ) : ℤ) ∧ (0 : ℤ) + ((e'.val : ℕ) : ℤ) < (((![1000, 512] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT `(c, e)`: the operand there plus the updates `(n, e)` of the rows `n` whose index is `c`. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![1000, 512]⟩ .f32) (idx : IVec ⟨2, ![131072, 1]⟩ w)
    (upd : FVec Ideal ⟨2, ![131072, 512]⟩ .f32) (c : Fin 1000) (e : Fin 512) :
    Host.scatterAdd (F := Ideal) d x idx upd (ix2 c e)
      = x (ix2 c e) + ∑ n : Fin 131072, (if (idx (ix2 n (0 : Fin 1))).toInt = (c.val : ℤ) then upd (ix2 n e) else 0) := by
  simp only [Host.scatterAdd, Ideal.hostScatterAdd_def, Ideal.hostScatterAdd]
  refine congrArg (x (ix2 c e) + ·) ?_
  rw [Finset.sum_filter, sum_idx2]
  refine Finset.sum_congr rfl fun n _ => ?_
  simp only [resultIdx?_rows d h1 h2 h3 h4]
  by_cases hA : (idx (ix2 n (0 : Fin 1))).toInt = (c.val : ℤ)
  · simp only [hA, true_and, if_true]
    rw [Finset.sum_ite_eq' Finset.univ e (fun e' => upd (ix2 n e')), if_pos (Finset.mem_univ e)]
  · simp only [hA, false_and, if_false, Finset.sum_const_zero]

end Rows

section Counts

variable (d : ScatterDims ⟨1, ![1000]⟩ ⟨2, ![131072, 1]⟩ ⟨1, ![131072]⟩)

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Where update element `n` lands: at `c` exactly when row `n`'s index word, read signed, is `c`. -/
theorem resultIdx?_counts (h1 : d.updateWindowDims = []) (h2 : d.insertedWindowDims = [0])
    (h3 : d.scatterDimsToOperandDims = [0]) (h4 : d.indexVectorDim = 1) {w : Nat}
    (idx : IVec ⟨2, ![131072, 1]⟩ w) (n : Fin 131072) (c : Fin 1000) :
    d.resultIdx? (ix1 n) idx = some (ix1 c) ↔ (idx (ix2 n (0 : Fin 1))).toInt = (c.val : ℤ) := by
  obtain ⟨uw, iw, sd, iv, wf⟩ := d
  simp only at h1 h2 h3 h4
  subst h1 h2 h3 h4
  have hs0 : ScatterDims.start ⟨[], [0], [0], 1, wf⟩ (ix1 n) idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hw0 : ScatterDims.window ⟨[], [0], [0], 1, wf⟩ (ix1 n) 0 = 0 := by
    unfold ScatterDims.window
    rw [dif_neg (show (0 : Fin 1) ∉ (⟨1, ![1000]⟩ : Shape).kept [0] by decide)]
  unfold ScatterDims.resultIdx?
  simp only [Fin.forall_fin_one, hs0, hw0]
  have hc0 : (ix1 c (0 : Fin 1)) = c := rfl
  have hz0 : ((![1000] : Fin 1 → ℕ) 0) = 1000 := rfl
  have hc := c.isLt
  by_cases hcond : (0 ≤ (idx (ix2 n (0 : Fin 1))).toInt + ((0 : ℕ) : ℤ) ∧ (idx (ix2 n (0 : Fin 1))).toInt + ((0 : ℕ) : ℤ) < (((![1000] : Fin 1 → ℕ) 0 : ℕ) : ℤ))
  · rw [dif_pos hcond]
    simp only [Option.some.injEq, funext_iff, Fin.forall_fin_one, Fin.ext_iff, hs0, hw0, hc0]
    rw [hz0] at hcond
    constructor
    · intro h0; omega
    · intro h0; omega
  · rw [dif_neg hcond]
    rw [hz0] at hcond
    constructor
    · intro h; exact absurd h (by simp)
    · intro h0
      exact absurd ⟨by omega, by omega⟩ hcond

/-- THE COUNT SCATTER READ AT `c`: the operand there plus the updates of the rows `n` whose index is `c`. -/
theorem scatterAdd_counts (h1 : d.updateWindowDims = []) (h2 : d.insertedWindowDims = [0])
    (h3 : d.scatterDimsToOperandDims = [0]) (h4 : d.indexVectorDim = 1) {w : Nat}
    (x : FVec Ideal ⟨1, ![1000]⟩ .f32) (idx : IVec ⟨2, ![131072, 1]⟩ w)
    (upd : FVec Ideal ⟨1, ![131072]⟩ .f32) (c : Fin 1000) :
    Host.scatterAdd (F := Ideal) d x idx upd (ix1 c)
      = x (ix1 c) + ∑ n : Fin 131072, (if (idx (ix2 n (0 : Fin 1))).toInt = (c.val : ℤ) then upd (ix1 n) else 0) := by
  simp only [Host.scatterAdd, Ideal.hostScatterAdd_def, Ideal.hostScatterAdd]
  refine congrArg (x (ix1 c) + ·) ?_
  rw [Finset.sum_filter, sum_idx1]
  refine Finset.sum_congr rfl fun n _ => ?_
  simp only [resultIdx?_counts d h1 h2 h3 h4]

end Counts

end Cert.LibScatterRows

end
-- ==== Proof.Spec.lean ====
/-
  What both programs compute, as plain functions on the extended reals.

  Every feature row is divided by the larger of its Euclidean norm and a small positive floor; the rows are then
  summed class by class (a row contributes to class `c` exactly when its label, read as a signed integer, is `c`),
  and the rows of each class are counted. Everything after that — the class means, the two mean squared errors
  against the prototype tables, the masks and the weighted total — is one fixed function of these two tables and of
  the remaining arguments, and is never opened.
-/
import Idealize.ShloMosaic.PureOps.Ideal
import Idealize.ShloMosaic.Lib.ValueIdx

noncomputable section

namespace Cert.Spec

open Idealize.ShloMosaic Idealize.ShloMosaic.ValueIdx

/-- The floor under a row's norm: the single-precision number nearest to 1e-12, read exactly. -/
def eps : EReal := Ideal.ofBits .f32 0x2B8CBCCC#32

/-- One when the label word `a`, read as a signed integer, is the class `c`; zero otherwise. -/
def hit (a : BitVec 32) (c : Fin 1000) : EReal := if a.toInt = (c.val : ℤ) then 1 else 0

/-- Entry `d` of row `n` of `x` once the row is divided by the larger of its Euclidean norm and `eps`. -/
def unitRow (x : Fin 131072 → Fin 512 → EReal) (n : Fin 131072) (d : Fin 512) : EReal :=
  Ideal.div (x n d) (max (Ideal.sqrt (∑ k : Fin 512, x n k * x n k)) eps)

/-- Entry `(c, d)` of the sum, over the rows labelled `c`, of the normalised rows. -/
def classSum (x : Fin 131072 → Fin 512 → EReal) (l : Fin 131072 → BitVec 32) (c : Fin 1000) (d : Fin 512) : EReal :=
  ∑ n : Fin 131072, hit (l n) c * unitRow x n d

/-- The number of rows labelled `c`. -/
def classCnt (l : Fin 131072 → BitVec 32) (c : Fin 1000) : EReal :=
  ∑ n : Fin 131072, hit (l n) c

/-- The per-class sums as an array over `[1000, 512]`. -/
def sumArr (x : Fin 131072 → Fin 512 → EReal) (l : Fin 131072 → BitVec 32) :
    (⟨2, ![1000, 512]⟩ : Shape).Idx → EReal := fun j => classSum x l (j 0) (j 1)

/-- The per-class counts as an array over `[1000]`. -/
def cntArr (l : Fin 131072 → BitVec 32) : (⟨1, ![1000]⟩ : Shape).Idx → EReal := fun j => classCnt l (j 0)

theorem sumArr_ix2 (x : Fin 131072 → Fin 512 → EReal) (l : Fin 131072 → BitVec 32) (c : Fin 1000) (d : Fin 512) :
    sumArr x l (ix2 c d) = classSum x l c d := rfl

theorem cntArr_ix1 (l : Fin 131072 → BitVec 32) (c : Fin 1000) : cntArr l (ix1 c) = classCnt l c := rfl

end Cert.Spec

end
-- ==== Proof.RefValue.lean ====
/-
  The reference program's result as the common closing computation of the class sums and counts.

  The reference divides every feature row by the larger of its Euclidean norm and a small floor, adds the rows class by
  class with one accumulating scatter, counts the rows of each class with a second one, and then runs the closing
  computation. At the exact (extended real) values the first scatter is the table of per-class sums of normalised
  rows and the second the table of per-class counts: a row lands in class `c` exactly when its label, read as a signed
  integer, is `c`, and a label that names no class lands nowhere.
-/
import proofs.«101863_j34806414967394_2_alg».proof.Proof.RefRun
import proofs.«101863_j34806414967394_2_alg».proof.Proof.Tail
import proofs.«101863_j34806414967394_2_alg».proof.Proof.LibScatterRows
import proofs.«101863_j34806414967394_2_alg».proof.Proof.Spec
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

section AnyValues

variable {F : FTy → Type} [FloatOps F]

/-- The feature rows, each divided by the larger of its Euclidean norm and the floor. -/
def unitR (x : FVec F S131072x512 .f32) : FVec F S131072x512 .f32 :=
  Host.divf x (broadcastInDim S131072x512 ![0, 1] bcast_S131072x1_S131072x512_0_1 (maximumf (Host.sqrt (broadcastInDim S131072x1 ![0] bcast_S131072_S131072x1_0 (Host.reduceAdd (mulf x x) (constant S_ .f32 0x00000000#32) reducesTo_S131072x512_S131072_d1 h_S_))) (broadcastInDim S131072x1 ![] bcast_S_S131072x1 (constant S_ .f32 0x2B8CBCCC#32))))

/-- The reference's table of class sums: the normalised rows scattered by label onto a zero table. -/
def sumR (x : FVec F S131072x512 .f32) (l : IVec S131072 32) : FVec F S1000x512 .f32 :=
  Host.scatterAdd scatter_S1000x512_S131072x1_S131072x512_1_0_0_1 (broadcastInDim S1000x512 ![] bcast_S_S1000x512 (constant S_ .f32 0x00000000#32)) (broadcastInDim S131072x1 ![0] bcast_S131072_S131072x1_0 l) (unitR x)

/-- The reference's table of class counts: a one per row scattered by label onto a zero vector. -/
def cntR (l : IVec S131072 32) : FVec F S1000 .f32 :=
  Host.scatterAdd scatter_S1000_S131072x1_S131072_n_0_0_1 (broadcastInDim S1000 ![] bcast_S_S1000 (constant S_ .f32 0x00000000#32)) (broadcastInDim S131072x1 ![0] bcast_S131072_S131072x1_0 l) (broadcastInDim S131072 ![] bcast_S_S131072 (constant S_ .f32 0x3F800000#32))

/-- The reference's class mask: true written at the listed classes (a negative entry counted from the end) of an
    all-false vector. -/
def curR (a2 : IVec S100 32) : IVec S1000 1 :=
  Host.scatter scatter_S1000_S100x1_S100_n_0_0_1 (fun _ b => b) (broadcastInDim S1000 ![] bcast_S_S1000 (constantI S_ 1 0#1)) (broadcastInDim S100x1 ![0] bcast_S100_S100x1_0 (select (cmpi .slt a2 (broadcastInDim S100 ![] bcast_S_S100 (constantI S_ 32 0#32))) (addi a2 (broadcastInDim S100 ![] bcast_S_S100 (constantI S_ 32 1000#32))) a2)) (broadcastInDim S100 ![] bcast_S_S100 (constantI S_ 1 1#1))

set_option maxRecDepth 8192 in
/-- The reference's result is the closing computation of its two scatters and its mask. -/
theorem res_eq_tail (m : (ℓ : Loc nD τ sig) → Buf (Elt F) ℓ) (c : Dev nD) :
    ValueP.res_main_v52 (F := F) m c
      = Cert.Tail.tail (sumR (m ((c.tc : Thread nD τ).loc main_arg0)) (m ((c.tc : Thread nD τ).loc main_arg1)))
          (cntR (F := F) (m ((c.tc : Thread nD τ).loc main_arg1))) (curR (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6)) := by
  unfold ValueP.res_main_v52 Cert.Tail.tail sumR cntR curR unitR
  rfl

end AnyValues

section ExactValues

/-- The host's square root at an element is the exact square root of the element. -/
theorem hostSqrt_apply {s : Shape} (y : FVec Ideal s .f32) (i : s.Idx) : Host.sqrt y i = Ideal.sqrt (y i) := rfl

/-- The squared norm of a row: the host's sum of the squares along the features, read at a row. -/
theorem sqnorm_apply (x : FVec Ideal S131072x512 .f32) (n : Fin 131072) :
    Host.reduceAdd (mulf x x) (constant (F := Ideal) S_ .f32 0x00000000#32) reducesTo_S131072x512_S131072_d1 h_S_ (ix1 n)
      = ∑ k : Fin 512, x (ix2 n k) * x (ix2 n k) := by
  rw [hostReduceAdd_apply, Ideal.hostReduceAdd_single reducesTo_S131072x512_S131072_d1 (by decide)]
  rw [constant_apply, Ideal.ofBits_zero_f32, zero_add]
  refine Finset.sum_congr rfl fun k _ => ?_
  rw [mulf_apply]
  have hk : (Shape.Reduces.lift (s := S131072x512) (t := S131072) (a := (1 : Fin 2)) (by decide) (ix1 n) k) = ix2 n k :=
    funext fun a => Fin.ext (by match a with | ⟨0, _⟩ => rfl | ⟨1, _⟩ => rfl)
  rw [hk]
  rfl

/-- The normalised rows read at an element: the entry over the larger of the row's norm and the floor. -/
theorem unitR_apply (x : FVec Ideal S131072x512 .f32) (n : Fin 131072) (e : Fin 512) :
    unitR (F := Ideal) x (ix2 n e) = Cert.Spec.unitRow (fun n d => x (ix2 n d)) n e := by
  unfold unitR Cert.Spec.unitRow Cert.Spec.eps
  rw [hostDivf_apply]
  refine congrArg (Ideal.div (x (ix2 n e))) ?_
  rw [broadcastInDim_apply ![0, 1] bcast_S131072x1_S131072x512_0_1 _ (ix2 n e) (ix2 n (0 : Fin 1)) (fun a => match a with
    | ⟨0, _⟩ => by show n.val = if (131072 : Nat) = 1 then 0 else n.val; rw [if_neg (by decide)]
    | ⟨1, _⟩ => by show 0 = if (1 : Nat) = 1 then 0 else e.val; rw [if_pos rfl])]
  rw [maximumf_apply]
  have hA : Host.sqrt (broadcastInDim S131072x1 ![0] bcast_S131072_S131072x1_0 (Host.reduceAdd (mulf x x)
        (constant (F := Ideal) S_ .f32 0x00000000#32) reducesTo_S131072x512_S131072_d1 h_S_)) (ix2 n (0 : Fin 1))
      = Ideal.sqrt (∑ k : Fin 512, x (ix2 n k) * x (ix2 n k)) := by
    rw [hostSqrt_apply]
    refine congrArg Ideal.sqrt ?_
    rw [broadcastInDim_apply ![0] bcast_S131072_S131072x1_0 _ (ix2 n (0 : Fin 1)) (ix1 n) (fun a => match a with
      | ⟨0, _⟩ => by show n.val = if (131072 : Nat) = 1 then 0 else n.val; rw [if_neg (by decide)])]
    exact sqnorm_apply x n
  have hB : broadcastInDim S131072x1 ![] bcast_S_S131072x1 (constant (F := Ideal) S_ .f32 0x2B8CBCCC#32) (ix2 n (0 : Fin 1))
      = Ideal.ofBits .f32 0x2B8CBCCC#32 := by
    rw [broadcastInDim_scalar_apply, constant_apply]
  rw [hA, hB]

/-- The labels as the scatter reads them: one index word per row. -/
theorem labels_apply (l : IVec S131072 32) (n : Fin 131072) :
    broadcastInDim S131072x1 ![0] bcast_S131072_S131072x1_0 l (ix2 n (0 : Fin 1)) = l (ix1 n) :=
  broadcastInDim_apply ![0] bcast_S131072_S131072x1_0 l (ix2 n (0 : Fin 1)) (ix1 n) (fun a => match a with
    | ⟨0, _⟩ => by show n.val = if (131072 : Nat) = 1 then 0 else n.val; rw [if_neg (by decide)])

/-- The reference's class sums are the per-class sums of the normalised rows. -/
theorem sumR_eq (x : FVec Ideal S131072x512 .f32) (l : IVec S131072 32) :
    sumR (F := Ideal) x l = Cert.Spec.sumArr (fun n d => x (ix2 n d)) (fun n => l (ix1 n)) := by
  funext j
  obtain ⟨c, e, rfl⟩ : ∃ (c : Fin 1000) (e : Fin 512), j = ix2 c e := ⟨j 0, j 1, eq_ix2 j⟩
  rw [Cert.Spec.sumArr_ix2]
  unfold sumR Cert.Spec.classSum
  rw [Cert.LibScatterRows.scatterAdd_rows _ rfl rfl rfl rfl, broadcastInDim_scalar_apply, constant_apply,
    Ideal.ofBits_zero_f32, zero_add]
  refine Finset.sum_congr rfl fun n _ => ?_
  rw [labels_apply, unitR_apply]
  unfold Cert.Spec.hit
  rw [ite_mul, one_mul, zero_mul]

/-- The reference's class counts are the numbers of rows per class. -/
theorem cntR_eq (l : IVec S131072 32) :
    cntR (F := Ideal) l = Cert.Spec.cntArr (fun n => l (ix1 n)) := by
  funext j
  obtain ⟨c, rfl⟩ : ∃ (c : Fin 1000), j = ix1 c := ⟨j 0, eq_ix1 j⟩
  rw [Cert.Spec.cntArr_ix1]
  unfold cntR Cert.Spec.classCnt
  rw [Cert.LibScatterRows.scatterAdd_counts _ rfl rfl rfl rfl, broadcastInDim_scalar_apply, constant_apply,
    Ideal.ofBits_zero_f32, zero_add]
  refine Finset.sum_congr rfl fun n _ => ?_
  rw [labels_apply, broadcastInDim_scalar_apply, constant_apply, Ideal.ofBits_one_f32]
  rfl

/-- THE REFERENCE'S RESULT at the exact values: the closing computation of the per-class sums of normalised rows, the
    per-class counts, its mask and the remaining arguments. -/
theorem res_eq (m : (ℓ : Loc nD τ sig) → Buf (Elt Ideal) ℓ) (c : Dev nD) :
    ValueP.res_main_v52 (F := Ideal) m c
      = Cert.Tail.tail (F := Ideal)
          (Cert.Spec.sumArr (fun n d => (m ((c.tc : Thread nD τ).loc main_arg0)) (ix2 n d))
            (fun n => (m ((c.tc : Thread nD τ).loc main_arg1)) (ix1 n)))
          (Cert.Spec.cntArr (fun n => (m ((c.tc : Thread nD τ).loc main_arg1)) (ix1 n)))
          (curR (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6)) := by
  rw [res_eq_tail, sumR_eq, cntR_eq]

end ExactValues

end Cert.ReferenceIdeal.RefValue

end
-- ==== Proof.KernelIdealValue.Entry.lean ====
/-
  What the later host operations of the idealized kernel program start from.

  When the launch returns, each of its two result arrays holds what the launch left in it, every argument still
  holds its launch contents, and the mask of current classes this program computes from the class list is the very
  mask the reference computes: the two programs scatter with the same dimension numbers into the same shapes.
-/
import proofs.«101863_j34806414967394_2_alg».proof.Proof.KernelIdealValue.TailK
import proofs.«101863_j34806414967394_2_alg».proof.Proof.RefValue

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The first result array (the per-half class sums) is what the launch left in it. -/
theorem WA_v2_0 (c : Dev nD) : WA m c main_v2_0 = (Fr.dats m 0 c).arrAt 2 cfg0.N :=
  Pipeline.withArrays_arr spec0 launch0.win.arr_inj c (V0 m c) (fun w => (dats m 0 c).arrAt w (cfgs 0).N) 2

/-- The second result array (the per-half class counts) is what the launch left in it. -/
theorem WA_v2_1 (c : Dev nD) : WA m c main_v2_1 = (Fr.dats m 0 c).arrAt 3 cfg0.N :=
  Pipeline.withArrays_arr spec0 launch0.win.arr_inj c (V0 m c) (fun w => (dats m 0 c).arrAt w (cfgs 0).N) 3

/-- The class list still holds its launch contents. -/
theorem WA_arg2 (c : Dev nD) : WA m c main_arg2 = m ((c.tc : Thread nD τ).loc main_arg2) :=
  (Pipeline.withArrays_of_ne _ c (V0 m c) _ main_arg2 (by exact (by decide : ∀ w, Pipeline.arrRef spec0 w ≠ main_arg2))).trans
    (Fr.V_main_arg2 m c)

/-- The first prototype table still holds its launch contents. -/
theorem WA_arg3 (c : Dev nD) : WA m c main_arg3 = m ((c.tc : Thread nD τ).loc main_arg3) :=
  (Pipeline.withArrays_of_ne _ c (V0 m c) _ main_arg3 (by exact (by decide : ∀ w, Pipeline.arrRef spec0 w ≠ main_arg3))).trans
    (Fr.V_main_arg3 m c)

/-- The second prototype table still holds its launch contents. -/
theorem WA_arg4 (c : Dev nD) : WA m c main_arg4 = m ((c.tc : Thread nD τ).loc main_arg4) :=
  (Pipeline.withArrays_of_ne _ c (V0 m c) _ main_arg4 (by exact (by decide : ∀ w, Pipeline.arrRef spec0 w ≠ main_arg4))).trans
    (Fr.V_main_arg4 m c)

/-- The first count vector still holds its launch contents. -/
theorem WA_arg5 (c : Dev nD) : WA m c main_arg5 = m ((c.tc : Thread nD τ).loc main_arg5) :=
  (Pipeline.withArrays_of_ne _ c (V0 m c) _ main_arg5 (by exact (by decide : ∀ w, Pipeline.arrRef spec0 w ≠ main_arg5))).trans
    (Fr.V_main_arg5 m c)

/-- The second count vector still holds its launch contents. -/
theorem WA_arg6 (c : Dev nD) : WA m c main_arg6 = m ((c.tc : Thread nD τ).loc main_arg6) :=
  (Pipeline.withArrays_of_ne _ c (V0 m c) _ main_arg6 (by exact (by decide : ∀ w, Pipeline.arrRef spec0 w ≠ main_arg6))).trans
    (Fr.V_main_arg6 m c)

/-- The two programs compute the same mask of current classes from the class list. -/
theorem cur_eq (a2 : IVec Cert.KernelIdeal.S100 32) : curK a2 = Cert.ReferenceIdeal.RefValue.curR a2 := by
  unfold curK Cert.ReferenceIdeal.RefValue.curR
  rfl

end Cert.KernelIdeal.Val

end
-- ==== Proof.KernelIdealValue.Outs.lean ====
/-
  What each case of the kernel body leaves in the two accumulators' staging buffers, as a payload of the body's skeleton.

  Away from a reset the body makes one whole-block store into each accumulator's buffer; the stored value is the
  sum payload (of the feature block, the label block and the buffer's old contents) and the count payload (of the
  label block and the buffer's old contents), each load reading a whole buffer. At a reset the body first stores the
  zero block into each buffer, loads it back, and then makes the same store: the read-back of the first store is the
  zero payload, and the last store's payload is what the buffer holds. Stated for every float instance.
-/
import proofs.«101863_j34806414967394_2_alg».proof.Proof.KernelIdealFrame.Frame
import Idealize.ShloMosaic.Lib.Pipeline.Value
import Idealize.ShloMosaic.Lib.Tactic

noncomputable section

namespace Cert.KernelIdeal.Val

open Idealize.ShloMosaic Idealize.ShloMosaic.TcCoe Idealize.SL.Sem
open Cert.KernelIdeal Cert.KernelIdeal.Gen Cert.KernelIdeal.Fr

variable {F : FTy → Type} [FloatOps F]

/-- The zero offsets of a rank-3 block. -/
theorem hz3 : (![0, 0, 0] : Fin 3 → Nat) = fun _ => 0 := funext fun a => by fin_cases a <;> rfl
/-- The zero offsets of a rank-2 block. -/
theorem hz2 : (![0, 0] : Fin 2 → Nat) = fun _ => 0 := funext fun a => by fin_cases a <;> rfl

/-- Away from a reset the body leaves, in the sum accumulator's buffer holding `xo2`, the sum payload of the two input
    blocks and `xo2`: its one covering store's payload, whose loads read the whole buffers. -/
theorem out_B_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) :
    out0_B_2 c i arg2 harg2 arg3 harg3 arg4 harg4 arg5 harg5 hc0 x0 x1 xo2 xo3 = k0_pay4 x0 x1 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  rw [View.canon_unit_zero hz3]
  simp only [View.readAt_eq_ld, harg2.read_unread, harg3.read_unread, harg4.read_unread, harg5.read_unread,
    View.ld_unit_zero (S := S2048x512) hz2, View.ld_unit_zero (S := S2048x1) hz2, View.ld_unit_zero (S := S1x1000x512) hz3,
    View.ld_unit_zero (S := S1x1x1000) hz3, shapeCast_self]

/-- Away from a reset the body leaves, in the count accumulator's buffer holding `xo3`, the count payload of the label
    block and `xo3`. -/
theorem out_B_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : ¬cond0_0 i)
    (x0 : Vec F S2048x512 .f32) (x1 : Vec F S2048x1 .i32) (xo2 : Vec F S1x1000x512 .f32) (xo3 : Vec F S1x1x1000 .f32) :
    out0_B_3 c i arg2 harg2 arg3 harg3 arg4 harg4 arg5 harg5 hc0 x0 x1 xo2 xo3 = k0_pay5 x1 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S2048x512) hz2, View.ld_unit_zero (S := S2048x1) hz2, View.ld_unit_zero (S := S1x1000x512) hz3,
    View.ld_unit_zero (S := S1x1x1000) hz3, shapeCast_self]

/-- At a reset the body stores the zero block, reads it back, and leaves the sum payload of the two input blocks and
    the zero block: the read-back of the first store is the zero payload. -/
theorem out_A_2 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) :
    out0_A_2 c i arg2 harg2 arg3 harg3 arg4 harg4 arg5 harg5 hc0 x0 x1 = k0_pay4 x0 x1 (k0_pay1 (F := F)) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1000x512) hz3, View.readCov_unit_zero (S := S1x1000x512) _ hz3]
  simp only [View.readAt_eq_ld, harg2.read_unread, harg3.read_unread, harg4.read_unread, harg5.read_unread,
    View.ld_unit_zero (S := S2048x512) hz2, View.ld_unit_zero (S := S2048x1) hz2, View.ld_unit_zero (S := S1x1000x512) hz3,
    View.ld_unit_zero (S := S1x1x1000) hz3, shapeCast_self]

/-- At a reset the body leaves, in the count accumulator's buffer, the count payload of the label block and the zero
    block it stored first and read back. -/
theorem out_A_3 (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (hc0 : cond0_0 i)
    (x0 : Vec F S2048x512 .f32) (x1 : Vec F S2048x1 .i32) :
    out0_A_3 c i arg2 harg2 arg3 harg3 arg4 harg4 arg5 harg5 hc0 x0 x1 = k0_pay5 x1 (k0_pay2 (F := F)) := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x1000) hz3, View.readCov_unit_zero (S := S1x1x1000) _ hz3]
  simp only [View.readAt_eq_ld, harg2.read_unread, harg3.read_unread, harg4.read_unread, harg5.read_unread,
    View.ld_unit_zero (S := S2048x512) hz2, View.ld_unit_zero (S := S2048x1) hz2, View.ld_unit_zero (S := S1x1000x512) hz3,
    View.ld_unit_zero (S := S1x1x1000) hz3, shapeCast_self]

end Cert.KernelIdeal.Val

end
-- ==== Proof.LibClip.lean ====
/-
  Clamping a word that is already in range does nothing.

  For a 32-bit word a whose signed value lies in [0, 1000): the signed maximum of 0 and a is a (a is not below 0),
  and the signed minimum of 999 and a is a (999 is not below a, because a ≤ 999). Hence the signed minimum of 999
  with the signed maximum of 0 and a is a. The same holds entry by entry for an array of words over any shape, with
  the two bounds given as constant arrays (a broadcast of a scalar constant is a constant array).
-/
import Idealize.ShloMosaic.PureOps
import Idealize.ShloMosaic.Lib.ValueIdx

noncomputable section

namespace Cert.LibClip

open Idealize.ShloMosaic

/-- The signed maximum of 0 and a word whose signed value is nonnegative is that word. -/
theorem maxsi_zero (a : BitVec 32) (h0 : 0 ≤ a.toInt) : IntOp.maxsi (0#32) a = a := by
  have z : (0#32 : BitVec 32).toInt = 0 := by decide
  have hn : ¬ (a.slt (0#32) = true) := by rw [BitVec.slt_iff_toInt_lt, z]; omega
  exact if_neg hn

/-- The signed minimum of 999 and a word whose signed value is below 1000 is that word. -/
theorem minsi_999 (a : BitVec 32) (h1 : a.toInt < 1000) : IntOp.minsi (999#32) a = a := by
  have k : (999#32 : BitVec 32).toInt = 999 := by decide
  have hn : ¬ ((999#32 : BitVec 32).slt a = true) := by rw [BitVec.slt_iff_toInt_lt, k]; omega
  exact if_neg hn

/-- Clamping a word with signed value in [0, 1000) to [0, 999] returns the word. -/
theorem clip_scalar (a : BitVec 32) (h0 : 0 ≤ a.toInt) (h1 : a.toInt < 1000) :
    IntOp.minsi (999#32) (IntOp.maxsi (0#32) a) = a := by
  rw [maxsi_zero a h0]; exact minsi_999 a h1

/-- Clamping an array of words, each with signed value in [0, 1000), to [0, 999] returns the array: the bounds
    are any arrays that are 0 and 999 everywhere. -/
theorem clip_vec_of {S : Shape} (lo hi l : IVec S 32) (hlo : ∀ i, lo i = 0#32) (hhi : ∀ i, hi i = 999#32)
    (h : ∀ i, 0 ≤ (l i).toInt ∧ (l i).toInt < 1000) : minsi hi (maxsi lo l) = l := by
  funext i
  show IntOp.minsi (hi i) (IntOp.maxsi (lo i) (l i)) = l i
  rw [hlo i, hhi i]
  exact clip_scalar (l i) (h i).1 (h i).2

/-- The same with the bounds written as constant arrays. -/
theorem clip_vec {S : Shape} (l : IVec S 32) (h : ∀ i, 0 ≤ (l i).toInt ∧ (l i).toInt < 1000) :
    minsi (fun _ => 999#32) (maxsi (fun _ => 0#32) l) = l :=
  clip_vec_of _ _ l (fun _ => rfl) (fun _ => rfl) h

/-- The same with the bounds written as broadcasts of scalar constants. -/
theorem clip_bcast {S0 S : Shape} (dims : Fin S0.rank → Fin S.rank) (hb : S0.BroadcastsInDim S dims) (l : IVec S 32)
    (h : ∀ i, 0 ≤ (l i).toInt ∧ (l i).toInt < 1000) :
    minsi (broadcastInDim S dims hb (constantI S0 32 999#32))
      (maxsi (broadcastInDim S dims hb (constantI S0 32 0#32)) l) = l :=
  clip_vec_of _ _ l (fun _ => rfl) (fun _ => rfl) h

end Cert.LibClip

end
-- ==== Proof.KernelIdealValue.Blocks.lean ====
/-
  What each grid point's two input blocks are, in terms of the launch memory.

  The grid has 2 × 32 = 64 points, numbered row-major; point t (of coordinates (p, i), t = 32 p + i) is given block
  number 32 p + i = t along the rows of both inputs, and block 0 along the columns. A block of the features is 2048 rows
  by 512 columns and a block of the label column is 2048 rows by 1 column, so entry (r, d) of point t's feature block
  is entry (2048 t + r, d) of the features, and entry (r, 0) of its label block is entry (2048 t + r, 0) of the label
  column. No operation before the launch writes the features, so they are as the launch memory has them. The label
  column is the labels clamped to [0, 999] (the signed maximum with 0, then the signed minimum with 999) and laid out
  as a column with the same entries in row-major order: when every label already lies in [0, 1000) the clamp does
  nothing and entry (n, 0) of the column is label n.
-/
import proofs.«101863_j34806414967394_2_alg».proof.Proof.KernelIdealFrame.Base
import proofs.«101863_j34806414967394_2_alg».proof.Proof.LibClip
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe

variable {F : FTy → Type} [FloatOps F]
variable (m : (ℓ : Loc nD τ sig) → Buf (Elt F) ℓ)

/-- The grid has 64 points. -/
theorem lt64 (t : Fin cfg0.N) : t.val < 64 := t.isLt.trans_eq N_0

/-- Row r of block t of the 64 blocks of 2048 rows. -/
def row (t : Fin cfg0.N) (r : Fin 2048) : Fin 131072 := ⟨t.val * 2048 + r.val, by have := lt64 t; omega⟩

/-- Point t's block number is t along the rows and 0 along the columns, for both inputs. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, d) of point t's block of the features is entry (2048 t + r, d) of the features in the launch memory. -/
theorem iblk0_apply (c : Dev nD) (t : Fin cfg0.N) (r : Fin 2048) (d : Fin 512) :
    Fr.iblk m c 0 t (ix2 r d) = m ((c.tc : Thread nD τ).loc main_arg0) (ix2 (row t r) d) := by
  obtain ⟨e0, e1, -, -⟩ := idx_facts t
  refine Eq.trans ?_ (congrFun (V_main_arg0 m c) (ix2 (row t r) d))
  show Fr.V m c main_arg0 (((cfg0.win 0).blk t).view.emb (ix2 r d)) = Fr.V m c main_arg0 (ix2 (row t r) d)
  refine congrArg (Fr.V m c main_arg0) ?_
  funext a; apply Fin.ext
  match a with
  | ⟨0, _⟩ => show win0_0.index t (0 : Fin 2) * 2048 + 1 * r.val = t.val * 2048 + r.val; rw [e0]; omega
  | ⟨1, _⟩ => show win0_0.index t (1 : Fin 2) * 512 + 1 * d.val = d.val; rw [e1]; omega

/-- Entry (r, 0) of point t's block of the label column is entry (2048 t + r, 0) of the label column. -/
theorem iblk1_apply (c : Dev nD) (t : Fin cfg0.N) (r : Fin 2048) :
    Fr.iblk m c 1 t (ix2 r (0 : Fin 1)) = Fr.V m c main_v1 (ix2 (row t r) (0 : Fin 1)) := by
  obtain ⟨-, -, e0, e1⟩ := idx_facts t
  show Fr.V m c main_v1 (((cfg0.win 1).blk t).view.emb (ix2 r (0 : Fin 1))) = Fr.V m c main_v1 (ix2 (row t r) (0 : Fin 1))
  refine congrArg (Fr.V m c main_v1) ?_
  funext a; apply Fin.ext
  match a with
  | ⟨0, _⟩ => show win0_1.index t (0 : Fin 2) * 2048 + 1 * r.val = t.val * 2048 + r.val; rw [e0]; omega
  | ⟨1, _⟩ => show win0_1.index t (1 : Fin 2) * 1 + 1 * 0 = 0; rw [e1]

/-- The label column at the launch: the labels clamped to [0, 999] and laid out as a column. -/
theorem V_v1_eq (c : Dev nD) :
    (Fr.V m c main_v1 : S131072x1.Idx → BitVec 32)
      = shapeCast S131072x1 (minsi (broadcastInDim S131072 ![] bcast_S_S131072 (constantI S_ 32 999#32))
          (maxsi (broadcastInDim S131072 ![] bcast_S_S131072 (constantI S_ 32 0#32)) (m ((c.tc : Thread nD τ).loc main_arg1))))
          shapeCasts_S131072_S131072x1 := by
  dsimp only [Fr.V, Fr.V0]
  simp only [Gen.hostOps0, Gen.hostOps0_1, Gen.hostOps0_2, List.flatten_cons, List.flatten_nil, List.append_nil, List.cons_append, List.nil_append]
  after_results
  rfl

/-- When every label lies in [0, 1000), entry (n, 0) of the label column is label n. -/
theorem V_v1_apply (c : Dev nD)
    (hl : ∀ n : Fin 131072, 0 ≤ (m ((c.tc : Thread nD τ).loc main_arg1) (ix1 n)).toInt ∧ (m ((c.tc : Thread nD τ).loc main_arg1) (ix1 n)).toInt < 1000)
    (n : Fin 131072) :
    Fr.V m c main_v1 (ix2 n (0 : Fin 1)) = m ((c.tc : Thread nD τ).loc main_arg1) (ix1 n) := by
  have hc := Cert.LibClip.clip_bcast (S0 := S_) (S := S131072) ![] bcast_S_S131072 (m ((c.tc : Thread nD τ).loc main_arg1))
    (fun i => by rw [eq_ix1 i]; exact hl (i 0))
  refine (congrFun (V_v1_eq m c) (ix2 n (0 : Fin 1))).trans ?_
  rw [hc]
  exact shapeCast_apply _ shapeCasts_S131072_S131072x1 (ix2 n (0 : Fin 1)) (ix1 n) (by
    rw [Shape.rowMajor_val_two, Shape.rowMajor_val_one]
    show n.val = n.val * 1 + 0
    omega)

end Cert.KernelIdeal.Val

end
-- ==== Proof.Payload.lean ====
/-
  The kernel body's arithmetic read at one index, at the ideal values.

  The two fills are zero everywhere. The one-hot table at row `r` and class `c` is one when row `r`'s label word, read
  as a signed integer, is `c`, and zero otherwise: the comparison of the label with the class's word is a one-bit word,
  widening and converting it gives one or zero, and for a class below 1000 the two 32-bit words are equal exactly when
  the label's signed value is the class. The count block after a step is the old count plus the column sums of that
  table. The sum block after a step is the old block plus the product of the table, contracted over the 2048 rows, with
  the feature block whose every row is divided by the larger of its Euclidean norm and the floor; narrowing to the
  16-bit format changes nothing at the ideal values.
-/
import proofs.«101863_j34806414967394_2_alg».proof.Proof.Gen.KernelIdeal.Skeleton
import proofs.«101863_j34806414967394_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-- The first zero fill reads zero everywhere. -/
theorem pay1_apply (j : S1x1000x512.Idx) : k0_pay1 (F := Ideal) j = 0 := by
  show Ideal.ofBits .f32 0x00000000#32 = 0
  exact Ideal.ofBits_zero_f32

/-- The second zero fill reads zero everywhere. -/
theorem pay2_apply (j : S1x1x1000.Idx) : k0_pay2 (F := Ideal) j = 0 := by
  show Ideal.ofBits .f32 0x00000000#32 = 0
  exact Ideal.ofBits_zero_f32

/-- The word of a class below 1000, read signed, is the class. -/
theorem toInt_classWord (c : Fin 1000) : (BitVec.ofNat 32 c.val).toInt = (c.val : ℤ) := by
  have hc := c.isLt
  have hm : c.val % 2 ^ 32 = c.val := Nat.mod_eq_of_lt (by omega)
  rw [BitVec.toInt_eq_toNat_of_lt (by rw [BitVec.toNat_ofNat, hm]; omega), BitVec.toNat_ofNat, hm]

/-- The word of a class below 1000 equals a label word exactly when the label, read signed, is the class. -/
theorem word_eq_iff (a : BitVec 32) (c : Fin 1000) : a = BitVec.ofNat 32 c.val ↔ a.toInt = (c.val : ℤ) := by
  constructor
  · rintro rfl
    exact toInt_classWord c
  · intro h
    exact BitVec.eq_of_toInt_eq (h.trans (toInt_classWord c).symm)

/-- The one-hot entry: the comparison bit, widened and converted, is one on a hit and zero otherwise. -/
theorem onehot_word (a : BitVec 32) (c : Fin 1000) :
    (FloatOps.sitofp (F := Ideal) .f32 ((IntOp.cmpi .eq a (BitVec.ofNat 32 c.val)).setWidth 32) : EReal) = Cert.Spec.hit a c := by
  unfold Cert.Spec.hit
  by_cases h : a = BitVec.ofNat 32 c.val
  · rw [if_pos ((word_eq_iff a c).1 h)]
    subst h
    have : IntOp.cmpi .eq (BitVec.ofNat 32 c.val) (BitVec.ofNat 32 c.val) = 1#1 := by
      simp [IntOp.cmpi]
    rw [this]
    show (((BitVec.setWidth 32 1#1).toInt : ℝ) : EReal) = 1
    have : (BitVec.setWidth 32 1#1).toInt = 1 := by decide
    rw [this]; simp
  · rw [if_neg (fun h' => h ((word_eq_iff a c).2 h'))]
    have : IntOp.cmpi .eq a (BitVec.ofNat 32 c.val) = 0#1 := by
      show BitVec.ofBool (a == BitVec.ofNat 32 c.val) = 0#1
      rw [beq_eq_false_iff_ne.2 h]; rfl
    rw [this]
    show (((BitVec.setWidth 32 0#1).toInt : ℝ) : EReal) = 0
    have : (BitVec.setWidth 32 0#1).toInt = 0 := by decide
    rw [this]; simp

/-- The one-hot table at row `r`, class `c`. -/
theorem pay3_apply (v13 : Vec Ideal S2048x1 .i32) (r : Fin 2048) (c : Fin 1000) :
    k0_pay3 (F := Ideal) v13 (ix2 r c) = Cert.Spec.hit (v13 (ix2 r (0 : Fin 1))) c := by
  unfold k0_pay3
  rw [shapeCast_self]
  refine (sitofp_apply _ _).trans ?_
  rw [extui_apply]
  show FloatOps.sitofp (F := Ideal) .f32 ((IntOp.cmpi .eq (broadcastTo S2048x1000 v13 broadcasts_S2048x1_S2048x1000 (ix2 r c))
      (broadcastTo S2048x1000 (iota .tc S1x1000 32 [1] iota_S1x1000_d1_w32) broadcasts_S1x1000_S2048x1000 (ix2 r c))).setWidth 32) = _
  rw [broadcastTo_1b_ab_apply, iota_single_apply]
  rw [broadcastTo_apply v13 broadcasts_S2048x1_S2048x1000 (ix2 r c) (ix2 r (0 : Fin 1)) (fun ax => by
    match ax with
    | ⟨0, _⟩ => rfl
    | ⟨1, _⟩ => rfl)]
  exact onehot_word _ c

/-- A float sum over one axis whose accumulator word is the zero word, read at a reduced index: the sum over the
    axis's coordinates. -/
theorem reduceAdd_zero_single {s t : Shape} {a : Fin s.rank} (src : FVec Ideal s .f32) (h : s.Reduces [a] t)
    (hφ : FKind.Formats .f32) (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The count block after one step: the old count plus the number of rows of the block labelled `c`. -/
theorem pay5_apply (v13 : Vec Ideal S2048x1 .i32) (v31 : FVec Ideal S1x1x1000 .f32) (c : Fin 1000) :
    k0_pay5 v13 v31 (ix3 (0 : Fin 1) (0 : Fin 1) c)
      = v31 (ix3 (0 : Fin 1) (0 : Fin 1) c) + ∑ r : Fin 2048, Cert.Spec.hit (v13 (ix2 r (0 : Fin 1))) c := by
  unfold k0_pay5
  rw [shapeCast_self]
  refine (addf_apply _ _ _).trans ?_
  refine congrArg (v31 (ix3 (0 : Fin 1) (0 : Fin 1) c) + ·) ?_
  refine (shapeCast_ab_1ab_apply _ _ (0 : Fin 1) (0 : Fin 1) c).trans ?_
  refine (shapeCast_a_1a_apply _ _ (0 : Fin 1) c).trans ?_
  refine (reduceAdd_zero_single _ _ _ _ (ix1 c)).trans ?_
  refine Finset.sum_congr rfl fun r _ => ?_
  have hl : reduces_S2048x1000_S1000.lift (ix1 c) r = ix2 r c := by
    funext ax
    match ax with
    | ⟨0, _⟩ => rfl
    | ⟨1, _⟩ => rfl
  rw [hl]
  exact pay3_apply v13 r c

/-- The dimension numbers of the block product: both operands contracted over their rows. -/
abbrev rowsDot := dot_S2048x1000_S2048x512_S1000x512_0_0_1_1_n_n

/-- A vector cast to a column reads, at `(r, u)`, the vector at `r`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at `(r, d)`, the column at `r`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The normalised feature entry: row `r`'s entry `d` divided by the larger of the row's norm and the floor. -/
theorem unit_apply (v3 : FVec Ideal S2048x512 .f32) (r : Fin 2048) (d : Fin 512) :
    divf v3 (broadcastTo S2048x512 (maximumf (sqrt (shapeCast S2048x1
      (multiReduction .add [1] S2048 (mulf v3 v3) 0x00000000#32 reduces_S2048x512_S2048 (.inl rfl) rfl) shapeCasts_S2048_S2048x1))
      (broadcast S2048x1 (Scalar.ofBits (F := Ideal) .f32 0x2B8CBCCC#32))) broadcasts_S2048x1_S2048x512) (ix2 r d)
      = Ideal.div (v3 (ix2 r d)) (max (Ideal.sqrt (∑ k : Fin 512, v3 (ix2 r k) * v3 (ix2 r k))) Cert.Spec.eps) := by
  refine (divf_apply _ _ _).trans ?_
  refine congrArg (Ideal.div (v3 (ix2 r d))) ?_
  refine (broadcastTo_a1_ab_apply _ _ r d).trans ?_
  refine (maximumf_apply _ _ _).trans ?_
  refine congrArg (max · Cert.Spec.eps) ?_
  show Ideal.sqrt (shapeCast S2048x1 _ shapeCasts_S2048_S2048x1 (ix2 r (0 : Fin 1))) = _
  refine congrArg Ideal.sqrt ?_
  refine (shapeCast_a_a1_apply _ _ r (0 : Fin 1)).trans ?_
  refine (reduceAdd_zero_single _ _ _ _ (ix1 r)).trans ?_
  refine Finset.sum_congr rfl fun k _ => ?_
  have hl : reduces_S2048x512_S2048.lift (ix1 r) k = ix2 r k := by
    funext ax
    match ax with
    | ⟨0, _⟩ => rfl
    | ⟨1, _⟩ => rfl
  rw [hl]
  rfl

/-- The block product at class `c`, feature `d`: the sum over the rows of the one-hot entry times the second operand's entry. -/
theorem matmul_rows_apply (A : FVec Ideal S2048x1000 .bf16) (B : FVec Ideal S2048x512 .bf16) (c : Fin 1000) (d : Fin 512) :
    matmul rowsDot none A B (constant S1000x512 .f32 0x00000000#32) (ix2 c d) = ∑ r : Fin 2048, A (ix2 r c) * B (ix2 r d) := by
  refine (Ideal.matmul_constant_zero_apply rowsDot none A B (ix2 c d)).trans ?_
  rw [← Equiv.sum_comp (contrEquiv1 rowsDot 2048 rfl rfl).symm]
  refine Finset.sum_congr rfl fun r _ => ?_
  have c1 := contrEquiv1_symm_val rowsDot 2048 rfl rfl r
  have l : rowsDot.lhsIdx (ix2 c d) ((contrEquiv1 rowsDot 2048 rfl rfl).symm r) = ix2 r c := by
    funext ax; apply Fin.ext
    match ax with
    | ⟨0, _⟩ => exact (DotDims.lhsIdx_val_of_single rowsDot (cl := (0 : Fin 2)) rfl _ _).trans c1
    | ⟨1, _⟩ => rfl
  have rr : rowsDot.rhsIdx (ix2 c d) ((contrEquiv1 rowsDot 2048 rfl rfl).symm r) = ix2 r d := by
    funext ax; apply Fin.ext
    match ax with
    | ⟨0, _⟩ => exact (DotDims.rhsIdx_val_of_single rowsDot (cr := (0 : Fin 2)) rfl _ _).trans c1
    | ⟨1, _⟩ => rfl
  rw [l, rr]

/-- The sum block after one step: the old block plus, for class `c` and feature `d`, the sum over the block's rows
    labelled `c` of the normalised feature entry. -/
theorem pay4_apply (v3 : FVec Ideal S2048x512 .f32) (v13 : Vec Ideal S2048x1 .i32) (v26 : FVec Ideal S1x1000x512 .f32)
    (c : Fin 1000) (d : Fin 512) :
    k0_pay4 v3 v13 v26 (ix3 (0 : Fin 1) c d)
      = v26 (ix3 (0 : Fin 1) c d) + ∑ r : Fin 2048, Cert.Spec.hit (v13 (ix2 r (0 : Fin 1))) c *
          Ideal.div (v3 (ix2 r d)) (max (Ideal.sqrt (∑ k : Fin 512, v3 (ix2 r k) * v3 (ix2 r k))) Cert.Spec.eps) := by
  unfold k0_pay4
  rw [shapeCast_self]
  refine (addf_apply _ _ _).trans ?_
  refine congrArg (v26 (ix3 (0 : Fin 1) c d) + ·) ?_
  refine (shapeCast_ab_1ab_apply _ _ (0 : Fin 1) c d).trans ?_
  refine (matmul_rows_apply _ _ c d).trans ?_
  refine Finset.sum_congr rfl fun r _ => ?_
  refine congrArg₂ (· * ·) ?_ ?_
  · exact pay3_apply v13 r c
  · exact unit_apply v3 r d

end Cert.KernelIdeal.Pay

end
-- ==== Proof.LibGridAcc.lean ====
/-
  The running total along a reduction axis of length 32.

  A sequence of contributions b 0, b 1, … is accumulated in runs of 32: at the first step of each run
  (a step whose number is a multiple of 32) the total restarts from zero plus that step's contribution; at every
  other step the step's contribution is added to the total so far. After step 32 p + i (i < 32) the total is
  therefore the sum of b (32 p + k) over k ≤ i, and after the last step of run p it is the sum of the run's 32
  contributions. The statements hold in any commutative additive monoid.
-/
import Mathlib.Algebra.BigOperators.Group.Finset.Basic
import Mathlib.Algebra.BigOperators.Fin
import Mathlib.Data.Fintype.BigOperators

noncomputable section

namespace Cert.LibGridAcc

open BigOperators

variable {M : Type*} [AddCommMonoid M]

/-- The running total after step n: restarted (from zero) at every step whose number is a multiple of 32. -/
def acc (b : ℕ → M) : ℕ → M
  | 0 => 0 + b 0
  | n + 1 => if (n + 1) % 32 = 0 then 0 + b (n + 1) else acc b n + b (n + 1)

theorem acc_zero (b : ℕ → M) : acc b 0 = 0 + b 0 := rfl

theorem acc_succ (b : ℕ → M) (n : ℕ) :
    acc b (n + 1) = if (n + 1) % 32 = 0 then 0 + b (n + 1) else acc b n + b (n + 1) := rfl

/-- At the first step of a run the total is that step's contribution. -/
theorem acc_start (b : ℕ → M) (p : ℕ) : acc b (32 * p) = b (32 * p) := by
  cases p with
  | zero => rw [Nat.mul_zero, acc_zero, zero_add]
  | succ q =>
    have e : 32 * (q + 1) = (32 * q + 31) + 1 := by omega
    rw [e, acc_succ, if_pos (by omega), zero_add]

/-- After step 32 p + i of run p (i < 32) the total is the sum of the run's contributions up to that step. -/
theorem acc_eq (b : ℕ → M) (p i : ℕ) (hi : i < 32) :
    acc b (32 * p + i) = ∑ k ∈ Finset.range (i + 1), b (32 * p + k) := by
  induction i with
  | zero =>
    rw [Finset.sum_range_one, Nat.add_zero]
    exact acc_start b p
  | succ j ih =>
    have e : 32 * p + (j + 1) = (32 * p + j) + 1 := by omega
    rw [Finset.sum_range_succ, ← ih (by omega), e, acc_succ, if_neg (by omega)]

/-- After the last step of run p the total is the sum of the run's 32 contributions. -/
theorem acc_last (b : ℕ → M) (p : ℕ) : acc b (32 * p + 31) = ∑ k : Fin 32, b (32 * p + k.val) := by
  rw [acc_eq b p 31 (by omega), Finset.sum_range]

/-- The contributions of a family over 64 steps, extended by zero. -/
def ext (g : Fin 64 → M) : ℕ → M := fun n => if h : n < 64 then g ⟨n, h⟩ else 0

theorem ext_lt (g : Fin 64 → M) (n : ℕ) (h : n < 64) : ext g n = g ⟨n, h⟩ := dif_pos h

/-- Over 64 steps, the total after step 31 is the sum of the first 32 contributions. -/
theorem acc_31 (g : Fin 64 → M) :
    acc (fun n => if h : n < 64 then g ⟨n, h⟩ else 0) 31 = ∑ i : Fin 32, g ⟨i.val, by omega⟩ := by
  have e := acc_last (fun n => if h : n < 64 then g ⟨n, h⟩ else 0) 0
  rw [show 32 * 0 + 31 = 31 from rfl] at e
  rw [e]
  refine Finset.sum_congr rfl fun i _ => ?_
  have hlt : 32 * 0 + i.val < 64 := by omega
  show (if h : 32 * 0 + i.val < 64 then g ⟨32 * 0 + i.val, h⟩ else 0) = _
  rw [dif_pos hlt]
  congr 1
  apply Fin.ext
  show 32 * 0 + i.val = i.val
  omega

/-- Over 64 steps, the total after step 63 is the sum of the last 32 contributions. -/
theorem acc_63 (g : Fin 64 → M) :
    acc (fun n => if h : n < 64 then g ⟨n, h⟩ else 0) 63 = ∑ i : Fin 32, g ⟨32 + i.val, by omega⟩ := by
  have e := acc_last (fun n => if h : n < 64 then g ⟨n, h⟩ else 0) 1
  rw [show 32 * 1 + 31 = 63 from rfl] at e
  rw [e]
  refine Finset.sum_congr rfl fun i _ => ?_
  have hlt : 32 * 1 + i.val < 64 := by omega
  show (if h : 32 * 1 + i.val < 64 then g ⟨32 * 1 + i.val, h⟩ else 0) = _
  rw [dif_pos hlt]

end Cert.LibGridAcc

end
-- ==== Proof.KernelIdealValue.Chain.lean ====
/-
  What the two accumulators hold after each grid point, at the ideal values.

  Block `t` of the 64 blocks of 2048 rows contributes, to entry (class, feature) of the class sums, the sum over its
  rows labelled with the class of the row's normalised feature entry, and to the class's count the number of its rows
  labelled with the class. One step of the body adds the point's block's contribution to what the accumulator held
  (the payloads read at an index, with the point's two blocks read off the launch memory). At the first point of each
  half of the grid the accumulators restart from zero; at any other point they continue from what the point before
  left. By induction on the point the accumulators therefore hold the running totals restarted every 32 points, and
  after the last point of each half they hold the sum of that half's 32 contributions.
-/
import proofs.«101863_j34806414967394_2_alg».proof.Proof.KernelIdealFrame.Frame
import proofs.«101863_j34806414967394_2_alg».proof.Proof.KernelIdealValue.Outs
import proofs.«101863_j34806414967394_2_alg».proof.Proof.KernelIdealValue.Blocks
import proofs.«101863_j34806414967394_2_alg».proof.Proof.Payload
import proofs.«101863_j34806414967394_2_alg».proof.Proof.LibGridAcc
import proofs.«101863_j34806414967394_2_alg».proof.Proof.Spec

noncomputable section

namespace Cert.KernelIdeal.Val

open Cert.KernelIdeal Cert.KernelIdeal.Gen Cert.KernelIdeal.Fr Cert.KernelIdeal.Pay
open Idealize.ShloMosaic Idealize.ShloMosaic.ValueIdx Idealize.ShloMosaic.TcCoe Idealize.SL.Sem

variable (m : (ℓ : Loc nD τ sig) → Buf (Elt Ideal) ℓ) (c : Dev nD)

/-- The features in the launch memory, by row and column. -/
def X (n : Fin 131072) (d : Fin 512) : EReal := m ((c.tc : Thread nD τ).loc main_arg0) (ix2 n d)

/-- The labels in the launch memory, by row. -/
def Lb (n : Fin 131072) : BitVec 32 := m ((c.tc : Thread nD τ).loc main_arg1) (ix1 n)

/-- Block `t`'s contribution to the class sums: over its 2048 rows, the normalised rows labelled `cl`. -/
def bS (t : Fin 64) (cl : Fin 1000) (d : Fin 512) : EReal :=
  ∑ r : Fin 2048, Cert.Spec.hit (Lb m c ⟨t.val * 2048 + r.val, by have := t.isLt; have := r.isLt; omega⟩) cl *
    Cert.Spec.unitRow (X m c) ⟨t.val * 2048 + r.val, by have := t.isLt; have := r.isLt; omega⟩ d

/-- Block `t`'s contribution to the class counts: the number of its rows labelled `cl`. -/
def bC (t : Fin 64) (cl : Fin 1000) : EReal :=
  ∑ r : Fin 2048, Cert.Spec.hit (Lb m c ⟨t.val * 2048 + r.val, by have := t.isLt; have := r.isLt; omega⟩) cl

/-- A label of point `t`'s block is the launch memory's label of that row, when every label is a class. -/
theorem label_apply
    (hl : ∀ n : Fin 131072, 0 ≤ (m ((c.tc : Thread nD τ).loc main_arg1) (ix1 n)).toInt ∧ (m ((c.tc : Thread nD τ).loc main_arg1) (ix1 n)).toInt < 1000)
    (t : Fin cfg0.N) (r : Fin 2048) : Fr.iblk m c 1 t (ix2 r (0 : Fin 1)) = Lb m c (row t r) :=
  (iblk1_apply m c t r).trans (V_v1_apply m c hl (row t r))

/-- One step of the sum accumulator at point `t`: the old entry plus block `t`'s contribution. -/
theorem step_S
    (hl : ∀ n : Fin 131072, 0 ≤ (m ((c.tc : Thread nD τ).loc main_arg1) (ix1 n)).toInt ∧ (m ((c.tc : Thread nD τ).loc main_arg1) (ix1 n)).toInt < 1000)
    (t : Fin cfg0.N) (v26 : FVec Ideal S1x1000x512 .f32) (cl : Fin 1000) (d : Fin 512) :
    k0_pay4 (Fr.iblk m c 0 t) (Fr.iblk m c 1 t) v26 (ix3 (0 : Fin 1) cl d)
      = v26 (ix3 (0 : Fin 1) cl d) + bS m c ⟨t.val, lt64 t⟩ cl d := by
  refine (pay4_apply (Fr.iblk m c 0 t) (Fr.iblk m c 1 t) v26 cl d).trans ?_
  refine congrArg (v26 (ix3 (0 : Fin 1) cl d) + ·) ?_
  unfold bS
  refine Finset.sum_congr rfl fun r _ => ?_
  have e : ∀ k : Fin 512, Fr.iblk m c 0 t (ix2 r k) = X m c (row t r) k := fun k => iblk0_apply m c t r k
  refine congrArg₂ (· * ·) (congrArg (Cert.Spec.hit · cl) (label_apply m c hl t r)) ?_
  unfold Cert.Spec.unitRow
  refine congrArg₂ Ideal.div (e d) ?_
  refine congrArg (max · Cert.Spec.eps) ?_
  refine congrArg Ideal.sqrt ?_
  exact Finset.sum_congr rfl fun k _ => congrArg₂ (· * ·) (e k) (e k)

/-- One step of the count accumulator at point `t`: the old entry plus block `t`'s count. -/
theorem step_C
    (hl : ∀ n : Fin 131072, 0 ≤ (m ((c.tc : Thread nD τ).loc main_arg1) (ix1 n)).toInt ∧ (m ((c.tc : Thread nD τ).loc main_arg1) (ix1 n)).toInt < 1000)
    (t : Fin cfg0.N) (v31 : FVec Ideal S1x1x1000 .f32) (cl : Fin 1000) :
    k0_pay5 (Fr.iblk m c 1 t) v31 (ix3 (0 : Fin 1) (0 : Fin 1) cl)
      = v31 (ix3 (0 : Fin 1) (0 : Fin 1) cl) + bC m c ⟨t.val, lt64 t⟩ cl := by
  refine (pay5_apply (Fr.iblk m c 1 t) v31 cl).trans ?_
  refine congrArg (v31 (ix3 (0 : Fin 1) (0 : Fin 1) cl) + ·) ?_
  unfold bC
  exact Finset.sum_congr rfl fun r _ => congrArg (Cert.Spec.hit · cl) (label_apply m c hl t r)

/-- At a point where the accumulators are reset, they hold that point's contributions (added to zero). -/
theorem outs_A
    (hl : ∀ n : Fin 131072, 0 ≤ (m ((c.tc : Thread nD τ).loc main_arg1) (ix1 n)).toInt ∧ (m ((c.tc : Thread nD τ).loc main_arg1) (ix1 n)).toInt < 1000)
    (t : Fin cfg0.N) (h0 : t.val % 32 = 0) (cl : Fin 1000) (d : Fin 512) :
    (Fr.outsAt0 m c t.val t.isLt).1 (ix3 (0 : Fin 1) cl d) = 0 + bS m c ⟨t.val, lt64 t⟩ cl d
    ∧ (Fr.outsAt0 m c t.val t.isLt).2 (ix3 (0 : Fin 1) (0 : Fin 1) cl) = 0 + bC m c ⟨t.val, lt64 t⟩ cl := by
  have e := Fr.outsAt0_A m c t h0
  have e1 := congrArg Prod.fst e
  have e2 := congrArg Prod.snd e
  dsimp only at e1 e2
  constructor
  · refine (congrFun e1 (ix3 (0 : Fin 1) cl d)).trans ?_
    refine (congrFun (out_A_2 (F := Ideal) c (grid0.coords t) (ms0_0 t) (hs0_0 t) (ms0_1 t) (hs0_1 t) (ms0_2 t) (hs0_2 t) (ms0_3 t) (hs0_3 t)
      ((hcond0_0 t).mpr h0) (Fr.iblk m c 0 t) (Fr.iblk m c 1 t)) (ix3 (0 : Fin 1) cl d)).trans ?_
    refine (step_S m c hl t (k0_pay1 (F := Ideal)) cl d).trans ?_
    exact congrArg (· + bS m c ⟨t.val, lt64 t⟩ cl d) (pay1_apply (ix3 (0 : Fin 1) cl d))
  · refine (congrFun e2 (ix3 (0 : Fin 1) (0 : Fin 1) cl)).trans ?_
    refine (congrFun (out_A_3 (F := Ideal) c (grid0.coords t) (ms0_0 t) (hs0_0 t) (ms0_1 t) (hs0_1 t) (ms0_2 t) (hs0_2 t) (ms0_3 t) (hs0_3 t)
      ((hcond0_0 t).mpr h0) (Fr.iblk m c 0 t) (Fr.iblk m c 1 t)) (ix3 (0 : Fin 1) (0 : Fin 1) cl)).trans ?_
    refine (step_C m c hl t (k0_pay2 (F := Ideal)) cl).trans ?_
    exact congrArg (· + bC m c ⟨t.val, lt64 t⟩ cl) (pay2_apply (ix3 (0 : Fin 1) (0 : Fin 1) cl))

/-- At any other point they hold what the point before left plus that point's contributions. -/
theorem outs_B
    (hl : ∀ n : Fin 131072, 0 ≤ (m ((c.tc : Thread nD τ).loc main_arg1) (ix1 n)).toInt ∧ (m ((c.tc : Thread nD τ).loc main_arg1) (ix1 n)).toInt < 1000)
    (t : Fin cfg0.N) (h0 : ¬t.val % 32 = 0) (cl : Fin 1000) (d : Fin 512) :
    (Fr.outsAt0 m c t.val t.isLt).1 (ix3 (0 : Fin 1) cl d)
      = (Fr.outsAt0 m c (t.val - 1) (Nat.lt_of_le_of_lt (Nat.sub_le _ _) t.isLt)).1 (ix3 (0 : Fin 1) cl d) + bS m c ⟨t.val, lt64 t⟩ cl d
    ∧ (Fr.outsAt0 m c t.val t.isLt).2 (ix3 (0 : Fin 1) (0 : Fin 1) cl)
      = (Fr.outsAt0 m c (t.val - 1) (Nat.lt_of_le_of_lt (Nat.sub_le _ _) t.isLt)).2 (ix3 (0 : Fin 1) (0 : Fin 1) cl) + bC m c ⟨t.val, lt64 t⟩ cl := by
  have e := Fr.outsAt0_B m c t h0
  have e1 := congrArg Prod.fst e
  have e2 := congrArg Prod.snd e
  dsimp only at e1 e2
  constructor
  · refine (congrFun e1 (ix3 (0 : Fin 1) cl d)).trans ?_
    refine (congrFun (out_B_2 (F := Ideal) c (grid0.coords t) (ms0_0 t) (hs0_0 t) (ms0_1 t) (hs0_1 t) (ms0_2 t) (hs0_2 t) (ms0_3 t) (hs0_3 t)
      (fun h => h0 ((hcond0_0 t).mp h)) (Fr.iblk m c 0 t) (Fr.iblk m c 1 t)
      (Fr.outsAt0 m c (t.val - 1) (Nat.lt_of_le_of_lt (Nat.sub_le _ _) t.isLt)).1
      (Fr.outsAt0 m c (t.val - 1) (Nat.lt_of_le_of_lt (Nat.sub_le _ _) t.isLt)).2) (ix3 (0 : Fin 1) cl d)).trans ?_
    exact step_S m c hl t (Fr.outsAt0 m c (t.val - 1) (Nat.lt_of_le_of_lt (Nat.sub_le _ _) t.isLt)).1 cl d
  · refine (congrFun e2 (ix3 (0 : Fin 1) (0 : Fin 1) cl)).trans ?_
    refine (congrFun (out_B_3 (F := Ideal) c (grid0.coords t) (ms0_0 t) (hs0_0 t) (ms0_1 t) (hs0_1 t) (ms0_2 t) (hs0_2 t) (ms0_3 t) (hs0_3 t)
      (fun h => h0 ((hcond0_0 t).mp h)) (Fr.iblk m c 0 t) (Fr.iblk m c 1 t)
      (Fr.outsAt0 m c (t.val - 1) (Nat.lt_of_le_of_lt (Nat.sub_le _ _) t.isLt)).1
      (Fr.outsAt0 m c (t.val - 1) (Nat.lt_of_le_of_lt (Nat.sub_le _ _) t.isLt)).2) (ix3 (0 : Fin 1) (0 : Fin 1) cl)).trans ?_
    exact step_C m c hl t (Fr.outsAt0 m c (t.val - 1) (Nat.lt_of_le_of_lt (Nat.sub_le _ _) t.isLt)).2 cl

/-- What the two accumulators hold after each point: the running totals, restarted at the first point of each half of
    the grid, of the blocks' contributions. By induction on the point. -/
theorem outs_acc
    (hl : ∀ n : Fin 131072, 0 ≤ (m ((c.tc : Thread nD τ).loc main_arg1) (ix1 n)).toInt ∧ (m ((c.tc : Thread nD τ).loc main_arg1) (ix1 n)).toInt < 1000) :
    ∀ (n : ℕ) (h : n < cfg0.N) (cl : Fin 1000) (d : Fin 512),
      (Fr.outsAt0 m c n h).1 (ix3 (0 : Fin 1) cl d)
        = Cert.LibGridAcc.acc (fun k => if hk : k < 64 then bS m c ⟨k, hk⟩ cl d else 0) n
      ∧ (Fr.outsAt0 m c n h).2 (ix3 (0 : Fin 1) (0 : Fin 1) cl)
        = Cert.LibGridAcc.acc (fun k => if hk : k < 64 then bC m c ⟨k, hk⟩ cl else 0) n
  | 0, h, cl, d => by
    have hA := outs_A m c hl ⟨0, h⟩ (Nat.zero_mod _) cl d
    have h64 : (0 : ℕ) < 64 := lt64 ⟨0, h⟩
    constructor
    · refine hA.1.trans ?_
      rw [Cert.LibGridAcc.acc_zero, dif_pos h64]
    · refine hA.2.trans ?_
      rw [Cert.LibGridAcc.acc_zero, dif_pos h64]
  | n + 1, h, cl, d => by
    have h64 : n + 1 < 64 := lt64 ⟨n + 1, h⟩
    by_cases h0 : (n + 1) % 32 = 0
    · have hA := outs_A m c hl ⟨n + 1, h⟩ h0 cl d
      constructor
      · refine hA.1.trans ?_
        rw [Cert.LibGridAcc.acc_succ, if_pos h0, dif_pos h64]
      · refine hA.2.trans ?_
        rw [Cert.LibGridAcc.acc_succ, if_pos h0, dif_pos h64]
    · have hB := outs_B m c hl ⟨n + 1, h⟩ h0 cl d
      have ih := outs_acc hl n (Nat.lt_of_succ_lt h) cl d
      constructor
      · refine hB.1.trans ?_
        rw [Cert.LibGridAcc.acc_succ, if_neg h0, dif_pos h64, ← ih.1]
        rfl
      · refine hB.2.trans ?_
        rw [Cert.LibGridAcc.acc_succ, if_neg h0, dif_pos h64, ← ih.2]
        rfl

/-- After the last point of the first half of the grid the sum accumulator holds the first 32 blocks' contributions. -/
theorem outs_31
    (hl : ∀ n : Fin 131072, 0 ≤ (m ((c.tc : Thread nD τ).loc main_arg1) (ix1 n)).toInt ∧ (m ((c.tc : Thread nD τ).loc main_arg1) (ix1 n)).toInt < 1000) (cl : Fin 1000) (d : Fin 512) :
    (Fr.outsAt0 m c 31 (by rw [show cfg0.N = 64 from N_0]; decide)).1 (ix3 (0 : Fin 1) cl d)
      = ∑ i : Fin 32, bS m c ⟨i.val, by omega⟩ cl d :=
  (outs_acc m c hl 31 _ cl d).1.trans (Cert.LibGridAcc.acc_31 (fun t => bS m c t cl d))

/-- After the last point of the second half it holds the last 32 blocks' contributions. -/
theorem outs_63
    (hl : ∀ n : Fin 131072, 0 ≤ (m ((c.tc : Thread nD τ).loc main_arg1) (ix1 n)).toInt ∧ (m ((c.tc : Thread nD τ).loc main_arg1) (ix1 n)).toInt < 1000) (cl : Fin 1000) (d : Fin 512) :
    (Fr.outsAt0 m c 63 (by rw [show cfg0.N = 64 from N_0]; decide)).1 (ix3 (0 : Fin 1) cl d)
      = ∑ i : Fin 32, bS m c ⟨32 + i.val, by omega⟩ cl d :=
  (outs_acc m c hl 63 _ cl d).1.trans (Cert.LibGridAcc.acc_63 (fun t => bS m c t cl d))

/-- After the last point of the first half of the grid the count accumulator holds the first 32 blocks' counts. -/
theorem outs_31_C
    (hl : ∀ n : Fin 131072, 0 ≤ (m ((c.tc : Thread nD τ).loc main_arg1) (ix1 n)).toInt ∧ (m ((c.tc : Thread nD τ).loc main_arg1) (ix1 n)).toInt < 1000) (cl : Fin 1000) :
    (Fr.outsAt0 m c 31 (by rw [show cfg0.N = 64 from N_0]; decide)).2 (ix3 (0 : Fin 1) (0 : Fin 1) cl)
      = ∑ i : Fin 32, bC m c ⟨i.val, by omega⟩ cl :=
  (outs_acc m c hl 31 _ cl (0 : Fin 512)).2.trans (Cert.LibGridAcc.acc_31 (fun t => bC m c t cl))

/-- After the last point of the second half it holds the last 32 blocks' counts. -/
theorem outs_63_C
    (hl : ∀ n : Fin 131072, 0 ≤ (m ((c.tc : Thread nD τ).loc main_arg1) (ix1 n)).toInt ∧ (m ((c.tc : Thread nD τ).loc main_arg1) (ix1 n)).toInt < 1000) (cl : Fin 1000) :
    (Fr.outsAt0 m c 63 (by rw [show cfg0.N = 64 from N_0]; decide)).2 (ix3 (0 : Fin 1) (0 : Fin 1) cl)
      = ∑ i : Fin 32, bC m c ⟨32 + i.val, by omega⟩ cl :=
  (outs_acc m c hl 63 _ cl (0 : Fin 512)).2.trans (Cert.LibGridAcc.acc_63 (fun t => bC m c t cl))

end Cert.KernelIdeal.Val

end
-- ==== Proof.KernelIdealValue.Arrays.lean ====
/-
  The two output arrays after the launch, read at an index.

  The 64 grid points fall into two halves of 32 consecutive points; half p accumulates, in two buffers that are kept
  from point to point, the per-class sums (a [1, 1000, 512] block) and the per-class counts (a [1, 1, 1000] block), and
  writes each block back exactly once, after the last point 32 p + 31 of the half, as block p along the leading axis
  of the [2, 1000, 512] array of sums and of the [2, 1, 1000] array of counts. The two blocks of each array cover it.
  So after the launch entry (p, cl, d) of the sums is entry (0, cl, d) of what the first buffer holds after point
  32 p + 31, and entry (p, 0, cl) of the counts is entry (0, 0, cl) of what the second buffer holds after that point.
-/
import proofs.«101863_j34806414967394_2_alg».proof.Proof.KernelIdealFrame.Frame
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe
open Idealize.ShloMosaic.Pipeline (Dat Cfg Window)

variable {F : FTy → Type} [FloatOps F]
variable (m : (ℓ : Loc nD τ sig) → Buf (Elt F) ℓ)

/-- The last point of half p of the grid is one of its 64 points. -/
theorem h31 (p : Fin 2) : 32 * p.val + 31 < cfg0.N := by
  rw [show cfg0.N = 64 from N_0]; omega

/-- The contents after a point depend on the point's number only. -/
theorem outsAt0_congr (c : Dev nD) {n n' : ℕ} (e : n = n') (h : n < cfg0.N) (h' : n' < cfg0.N) :
    outsAt0 m c n h = outsAt0 m c n' h' := by
  subst e; rfl

/-- Point t's block of either output is block number t / 32 along the leading axis, block 0 along the others; the
    blocks are never cut at an edge. -/
theorem idx_facts_out : ∀ t : Fin cfg0.N,
    win0_2.index t (0 : Fin 3) = t.val / 32 ∧ win0_2.index t (1 : Fin 3) = 0 ∧ win0_2.index t (2 : Fin 3) = 0
    ∧ win0_3.index t (0 : Fin 3) = t.val / 32 ∧ win0_3.index t (1 : Fin 3) = 0 ∧ win0_3.index t (2 : Fin 3) = 0
    ∧ win0_2.xsize (grid0.coords t) (0 : Fin 3) = 1 ∧ win0_2.xsize (grid0.coords t) (1 : Fin 3) = 1000 ∧ win0_2.xsize (grid0.coords t) (2 : Fin 3) = 512
    ∧ win0_3.xsize (grid0.coords t) (0 : Fin 3) = 1 ∧ win0_3.xsize (grid0.coords t) (1 : Fin 3) = 1 ∧ win0_3.xsize (grid0.coords t) (2 : Fin 3) = 1000 :=
  (by decide +kernel : ∀ t : Fin grid0.N, _)

/-- Entry (p, cl, d) of the per-half sums: entry (0, cl, d) of what the first accumulator holds after the last point of half p. -/
def G2 (c : Dev nD) : S2x1000x512.Idx → F .f32 := fun j =>
  (outsAt0 m c (32 * (j 0).val + 31) (h31 (j 0))).1 (ix3 (0 : Fin 1) (j 1) (j 2))

/-- Entry (p, 0, cl) of the per-half counts: entry (0, 0, cl) of what the second accumulator holds after the last point of half p. -/
def G3 (c : Dev nD) : S2x1x1000.Idx → F .f32 := fun j =>
  (outsAt0 m c (32 * (j 0).val + 31) (h31 (j 0))).2 (ix3 (0 : Fin 1) (0 : Fin 1) (j 2))

/-- The per-half sums at an index of the block of a point t that ends a half, by coordinates. -/
theorem G2_at (c : Dev nD) (t : Fin cfg0.N) (h : t.val % 32 = 31) (i : S2x1000x512.Idx) (k : S1x1000x512.Idx)
    (h0 : (i 0).val = t.val / 32) (h1 : (i 1).val = (k 1).val) (h2 : (i 2).val = (k 2).val) (hk : (k 0).val = 0) :
    G2 m c i = (outsAt0 m c t.val t.isLt).1 k := by
  have e : 32 * (i 0).val + 31 = t.val := by omega
  show (outsAt0 m c (32 * (i 0).val + 31) _).1 (ix3 (0 : Fin 1) (i 1) (i 2)) = _
  rw [outsAt0_congr m c e _ t.isLt]
  refine congrArg _ ?_
  funext a
  match a with
  | ⟨0, _⟩ => exact Fin.ext hk.symm
  | ⟨1, _⟩ => exact Fin.ext h1
  | ⟨2, _⟩ => exact Fin.ext h2

/-- What a point that writes its block of the sums back writes is that block of the per-half sums. -/
theorem flushed2_eq (c : Dev nD) (t : Fin cfg0.N) (hf : (cfg0.win 2).flush t = true) :
    (dats m 0 c).flushed 2 t = ((cfg0.win 2).blk t).view.read (Elt F) (G2 m c) := by
  have h := (flush0_2 t).mp hf
  obtain ⟨e0, e1, e2, -, -, -, x0, x1, x2, -, -, -⟩ := idx_facts_out t
  show (cfg0.win 2).cut (grid0.coords t) ((dats m 0 c).after 2 t) = _
  rw [after0_2]
  funext y
  have hy : (y 0).val < win0_2.xsize (grid0.coords t) (0 : Fin 3) := (y 0).isLt
  rw [x0] at hy
  show (outsAt0 m c t.val t.isLt).1 ((cfg0.win 2).xinj (grid0.coords t) y) = G2 m c (((cfg0.win 2).blk t).view.emb y)
  refine (G2_at m c t h _ _ ?_ ?_ ?_ ?_).symm
  · show win0_2.index t (0 : Fin 3) * 1 + 1 * (y 0).val = t.val / 32
    rw [e0]; omega
  · show win0_2.index t (1 : Fin 3) * 1000 + 1 * (y 1).val = (y 1).val
    rw [e1]; omega
  · show win0_2.index t (2 : Fin 3) * 512 + 1 * (y 2).val = (y 2).val
    rw [e2]; omega
  · show (y 0).val = 0
    omega

/-- The array of per-half sums after the launch: every entry lies in the block written back after the last point of its half. -/
theorem arr2_eq (c : Dev nD) : (dats m 0 c).arrAt 2 cfg0.N = G2 m c :=
  (dats m 0 c).arrAt_eq_of_cover 2 (G2 m c) (flushed2_eq m c) fun i => by
    have hp : (i 0).val < 2 := (i 0).isLt
    have h1 : (i 1).val < 1000 := (i 1).isLt
    have h2 : (i 2).val < 512 := (i 2).isLt
    obtain ⟨t, ht⟩ : ∃ t : Fin cfg0.N, t.val = 32 * (i 0).val + 31 := ⟨⟨_, h31 (i 0)⟩, rfl⟩
    refine ⟨t, (flush0_2 t).mpr (by omega), ?_⟩
    obtain ⟨e0, e1, e2, -, -, -, x0, x1, x2, -, -, -⟩ := idx_facts_out t
    show i ∈ ((View.whole main_v2_0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + win0_2.xsize (grid0.coords t) 0
      rw [e0, x0]; omega
    | ⟨1, _⟩ =>
      show win0_2.index t 1 * 1000 ≤ (i 1 : Nat) ∧ (i 1 : Nat) < win0_2.index t 1 * 1000 + win0_2.xsize (grid0.coords t) 1
      rw [e1, x1]; omega
    | ⟨2, _⟩ =>
      show win0_2.index t 2 * 512 ≤ (i 2 : Nat) ∧ (i 2 : Nat) < win0_2.index t 2 * 512 + win0_2.xsize (grid0.coords t) 2
      rw [e2, x2]; omega

/-- Entry (p, cl, d) of the array of per-half sums after the launch. -/
theorem arr2_apply (c : Dev nD) (p : Fin 2) (cl : Fin 1000) (d : Fin 512) :
    (Fr.dats m 0 c).arrAt 2 cfg0.N (ix3 p cl d) = (Fr.outsAt0 m c (32 * p.val + 31) (h31 p)).1 (ix3 (0 : Fin 1) cl d) :=
  congrFun (arr2_eq m c) (ix3 p cl d)

/-- The per-half counts at an index of the block of a point t that ends a half, by coordinates. -/
theorem G3_at (c : Dev nD) (t : Fin cfg0.N) (h : t.val % 32 = 31) (i : S2x1x1000.Idx) (k : S1x1x1000.Idx)
    (h0 : (i 0).val = t.val / 32) (h2 : (i 2).val = (k 2).val) (hk0 : (k 0).val = 0) (hk1 : (k 1).val = 0) :
    G3 m c i = (outsAt0 m c t.val t.isLt).2 k := by
  have e : 32 * (i 0).val + 31 = t.val := by omega
  show (outsAt0 m c (32 * (i 0).val + 31) _).2 (ix3 (0 : Fin 1) (0 : Fin 1) (i 2)) = _
  rw [outsAt0_congr m c e _ t.isLt]
  refine congrArg _ ?_
  funext a
  match a with
  | ⟨0, _⟩ => exact Fin.ext hk0.symm
  | ⟨1, _⟩ => exact Fin.ext hk1.symm
  | ⟨2, _⟩ => exact Fin.ext h2

/-- What a point that writes its block of the counts back writes is that block of the per-half counts. -/
theorem flushed3_eq (c : Dev nD) (t : Fin cfg0.N) (hf : (cfg0.win 3).flush t = true) :
    (dats m 0 c).flushed 3 t = ((cfg0.win 3).blk t).view.read (Elt F) (G3 m c) := by
  have h := (flush0_3 t).mp hf
  obtain ⟨-, -, -, e0, e1, e2, -, -, -, x0, x1, x2⟩ := idx_facts_out t
  show (cfg0.win 3).cut (grid0.coords t) ((dats m 0 c).after 3 t) = _
  rw [after0_3]
  funext y
  have hy0 : (y 0).val < win0_3.xsize (grid0.coords t) (0 : Fin 3) := (y 0).isLt
  have hy1 : (y 1).val < win0_3.xsize (grid0.coords t) (1 : Fin 3) := (y 1).isLt
  rw [x0] at hy0
  rw [x1] at hy1
  show (outsAt0 m c t.val t.isLt).2 ((cfg0.win 3).xinj (grid0.coords t) y) = G3 m c (((cfg0.win 3).blk t).view.emb y)
  refine (G3_at m c t h _ _ ?_ ?_ ?_ ?_).symm
  · show win0_3.index t (0 : Fin 3) * 1 + 1 * (y 0).val = t.val / 32
    rw [e0]; omega
  · show win0_3.index t (2 : Fin 3) * 1000 + 1 * (y 2).val = (y 2).val
    rw [e2]; omega
  · show (y 0).val = 0
    omega
  · show (y 1).val = 0
    omega

/-- The array of per-half counts after the launch: every entry lies in the block written back after the last point of its half. -/
theorem arr3_eq (c : Dev nD) : (dats m 0 c).arrAt 3 cfg0.N = G3 m c :=
  (dats m 0 c).arrAt_eq_of_cover 3 (G3 m c) (flushed3_eq m c) fun i => by
    have hp : (i 0).val < 2 := (i 0).isLt
    have h1 : (i 1).val < 1 := (i 1).isLt
    have h2 : (i 2).val < 1000 := (i 2).isLt
    obtain ⟨t, ht⟩ : ∃ t : Fin cfg0.N, t.val = 32 * (i 0).val + 31 := ⟨⟨_, h31 (i 0)⟩, rfl⟩
    refine ⟨t, (flush0_3 t).mpr (by omega), ?_⟩
    obtain ⟨-, -, -, e0, e1, e2, -, -, -, x0, x1, x2⟩ := idx_facts_out t
    show i ∈ ((View.whole main_v2_1).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + win0_3.xsize (grid0.coords t) 0
      rw [e0, x0]; omega
    | ⟨1, _⟩ =>
      show win0_3.index t 1 * 1 ≤ (i 1 : Nat) ∧ (i 1 : Nat) < win0_3.index t 1 * 1 + win0_3.xsize (grid0.coords t) 1
      rw [e1, x1]; omega
    | ⟨2, _⟩ =>
      show win0_3.index t 2 * 1000 ≤ (i 2 : Nat) ∧ (i 2 : Nat) < win0_3.index t 2 * 1000 + win0_3.xsize (grid0.coords t) 2
      rw [e2, x2]; omega

/-- Entry (p, 0, cl) of the array of per-half counts after the launch. -/
theorem arr3_apply (c : Dev nD) (p : Fin 2) (cl : Fin 1000) :
    (Fr.dats m 0 c).arrAt 3 cfg0.N (ix3 p (0 : Fin 1) cl) = (Fr.outsAt0 m c (32 * p.val + 31) (h31 p)).2 (ix3 (0 : Fin 1) (0 : Fin 1) cl) :=
  congrFun (arr3_eq m c) (ix3 p (0 : Fin 1) cl)

end Cert.KernelIdeal.Val

end
-- ==== Proof.LibCoreSum.lean ====
/-
  The sum over a leading axis of length two, read at an index (exact arithmetic on the extended reals).

  A sum-reduction over the leading axis of a [2, a, b] array, started from the constant zero, is at index (c, d) the
  zero plus the sum over k < 2 of the entries (k, c, d): that is entry (0, c, d) plus entry (1, c, d). For a
  [2, 1, a] array the reduction gives a [1, a] array; read as an [a] array (the same entries in row-major order) its
  entry c is entry (0, 0, c) plus entry (1, 0, c).
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.LibCoreSum

open Idealize.ShloMosaic Idealize.ShloMosaic.ValueIdx

/-- Over the result index (c, d), the source index with coordinate k on the dropped leading axis is (k, c, d). -/
theorem lift_ix2 {n a b : ℕ} (hr : (⟨3, ![n, a, b]⟩ : Shape).Reduces [0] ⟨2, ![a, b]⟩) (k : Fin n) (c : Fin a) (d : Fin b) :
    hr.lift (ix2 c d) k = ix3 k c d := by
  funext x
  match x with
  | ⟨0, _⟩ => exact Fin.ext rfl
  | ⟨1, _⟩ => exact Fin.ext rfl
  | ⟨2, _⟩ => exact Fin.ext rfl

/-- The sum over the leading axis of a [2, a, b] array from the constant zero, at (c, d): the two entries added. -/
theorem hostSum2 {a b : ℕ} (X : FVec Ideal ⟨3, ![2, a, b]⟩ .f32)
    (h : (⟨3, ![2, a, b]⟩ : Shape).ReducesTo [0] ⟨2, ![a, b]⟩) (hr : (⟨3, ![2, a, b]⟩ : Shape).Reduces [0] ⟨2, ![a, b]⟩)
    (h' : 0 < (⟨0, ![]⟩ : Shape).numel) (c : Fin a) (d : Fin b) :
    Host.reduceAdd (F := Ideal) X (constant (F := Ideal) ⟨0, ![]⟩ .f32 0x00000000#32) h h' (ix2 c d)
      = X (ix3 (0 : Fin 2) c d) + X (ix3 (1 : Fin 2) c d) := by
  rw [hostReduceAdd_apply, Ideal.hostReduceAdd_single h hr, constant_apply, Ideal.ofBits_zero_f32, zero_add]
  refine (Fin.sum_univ_two (f := fun k : Fin 2 => X (hr.lift (ix2 c d) k))).trans ?_
  rw [lift_ix2, lift_ix2]

/-- The same for a [2, 1, a] array, the [1, a] result read as an [a] array. -/
theorem hostSum2_row {a : ℕ} (Y : FVec Ideal ⟨3, ![2, 1, a]⟩ .f32)
    (h : (⟨3, ![2, 1, a]⟩ : Shape).ReducesTo [0] ⟨2, ![1, a]⟩) (hr : (⟨3, ![2, 1, a]⟩ : Shape).Reduces [0] ⟨2, ![1, a]⟩)
    (h' : 0 < (⟨0, ![]⟩ : Shape).numel) (hs : (⟨2, ![1, a]⟩ : Shape).ShapeCasts ⟨1, ![a]⟩) (c : Fin a) :
    shapeCast ⟨1, ![a]⟩ (Host.reduceAdd (F := Ideal) Y (constant (F := Ideal) ⟨0, ![]⟩ .f32 0x00000000#32) h h') hs (ix1 c)
      = Y (ix3 (0 : Fin 2) (0 : Fin 1) c) + Y (ix3 (1 : Fin 2) (0 : Fin 1) c) := by
  rw [shapeCast_1a_a_apply]
  exact hostSum2 Y h hr h' 0 c

/-- At [2, 1000, 512]. -/
theorem coreSum (X : FVec Ideal ⟨3, ![2, 1000, 512]⟩ .f32)
    (h : (⟨3, ![2, 1000, 512]⟩ : Shape).ReducesTo [0] ⟨2, ![1000, 512]⟩) (h' : 0 < (⟨0, ![]⟩ : Shape).numel)
    (c : Fin 1000) (d : Fin 512) :
    Host.reduceAdd (F := Ideal) X (constant (F := Ideal) ⟨0, ![]⟩ .f32 0x00000000#32) h h' (ix2 c d)
      = X (ix3 (0 : Fin 2) c d) + X (ix3 (1 : Fin 2) c d) :=
  hostSum2 X h (by decide) h' c d

/-- At [2, 1, 1000]. -/
theorem coreCnt (Y : FVec Ideal ⟨3, ![2, 1, 1000]⟩ .f32)
    (h : (⟨3, ![2, 1, 1000]⟩ : Shape).ReducesTo [0] ⟨2, ![1, 1000]⟩) (h' : 0 < (⟨0, ![]⟩ : Shape).numel)
    (hs : (⟨2, ![1, 1000]⟩ : Shape).ShapeCasts ⟨1, ![1000]⟩) (c : Fin 1000) :
    shapeCast ⟨1, ![1000]⟩ (Host.reduceAdd (F := Ideal) Y (constant (F := Ideal) ⟨0, ![]⟩ .f32 0x00000000#32) h h') hs (ix1 c)
      = Y (ix3 (0 : Fin 2) (0 : Fin 1) c) + Y (ix3 (1 : Fin 2) (0 : Fin 1) c) :=
  hostSum2_row Y h (by decide) h' hs c

end Cert.LibCoreSum

end
-- ==== Proof.LibRegroup.lean ====
/-
  Regrouping a sum over 131072 rows by blocks.

  Every n < 131072 is t * 2048 + r for exactly one block t < 64 and offset r < 2048 (quotient and remainder by 2048),
  and every t < 64 is p * 32 + i for exactly one p < 2 and i < 32. So, in any commutative additive monoid, the sum of
  f over all rows is the sum over the blocks of the sums over the offsets, and also the triple sum over (p, i, r) of
  f at row (p * 32 + i) * 2048 + r.
-/
import Mathlib.Algebra.BigOperators.Group.Finset.Basic
import Mathlib.Algebra.BigOperators.Fin
import Mathlib.Data.Fintype.BigOperators

noncomputable section

namespace Cert.LibRegroup

open BigOperators

/-- Row t * 2048 + r: offset r of block t. -/
def blk (t : Fin 64) (r : Fin 2048) : Fin 131072 := ⟨t.val * 2048 + r.val, by omega⟩

/-- Row (p * 32 + i) * 2048 + r. -/
def row (p : Fin 2) (i : Fin 32) (r : Fin 2048) : Fin 131072 := ⟨(p.val * 32 + i.val) * 2048 + r.val, by omega⟩

/-- Block p * 32 + i. -/
def blockOf (p : Fin 2) (i : Fin 32) : Fin 64 := ⟨p.val * 32 + i.val, by omega⟩

theorem row_eq_blk (p : Fin 2) (i : Fin 32) (r : Fin 2048) : row p i r = blk (blockOf p i) r := rfl

/-- Rows are the pairs (block, offset): quotient and remainder by 2048. -/
def blkEquiv : Fin 64 × Fin 2048 ≃ Fin 131072 where
  toFun x := blk x.1 x.2
  invFun n := (⟨n.val / 2048, by omega⟩, ⟨n.val % 2048, by omega⟩)
  left_inv x := by
    obtain ⟨t, r⟩ := x
    apply Prod.ext <;> apply Fin.ext <;> simp only [blk] <;> omega
  right_inv n := by
    apply Fin.ext; simp only [blk]; omega

/-- Blocks are the pairs (p, i): quotient and remainder by 32. -/
def blockEquiv : Fin 2 × Fin 32 ≃ Fin 64 where
  toFun x := blockOf x.1 x.2
  invFun t := (⟨t.val / 32, by omega⟩, ⟨t.val % 32, by omega⟩)
  left_inv x := by
    obtain ⟨p, i⟩ := x
    apply Prod.ext <;> apply Fin.ext <;> simp only [blockOf] <;> omega
  right_inv t := by
    apply Fin.ext; simp only [blockOf]; omega

variable {M : Type*} [AddCommMonoid M]

/-- The sum over all rows is the sum over the blocks of the sums over the offsets. -/
theorem sum_blk (f : Fin 131072 → M) : ∑ t : Fin 64, ∑ r : Fin 2048, f (blk t r) = ∑ n : Fin 131072, f n := by
  rw [← Fintype.sum_prod_type' (f := fun t r => f (blk t r))]
  exact Fintype.sum_equiv blkEquiv _ _ (fun _ => rfl)

/-- The same with the row written out. -/
theorem sum_blk' (f : Fin 131072 → M) :
    ∑ t : Fin 64, ∑ r : Fin 2048, f ⟨t.val * 2048 + r.val, by omega⟩ = ∑ n : Fin 131072, f n := sum_blk f

/-- A sum over the blocks is the double sum over (p, i). -/
theorem sum_block (g : Fin 64 → M) : ∑ p : Fin 2, ∑ i : Fin 32, g (blockOf p i) = ∑ t : Fin 64, g t := by
  rw [← Fintype.sum_prod_type' (f := fun p i => g (blockOf p i))]
  exact Fintype.sum_equiv blockEquiv _ _ (fun _ => rfl)

/-- The sum over all rows is the triple sum over (p, i, r) of f at row (p * 32 + i) * 2048 + r. -/
theorem sum_row (f : Fin 131072 → M) :
    ∑ p : Fin 2, ∑ i : Fin 32, ∑ r : Fin 2048, f (row p i r) = ∑ n : Fin 131072, f n := by
  rw [← sum_blk f]
  exact sum_block (fun t => ∑ r : Fin 2048, f (blk t r))

/-- The same with the row written out. -/
theorem sum_row' (f : Fin 131072 → M) :
    ∑ p : Fin 2, ∑ i : Fin 32, ∑ r : Fin 2048, f ⟨(p.val * 32 + i.val) * 2048 + r.val, by omega⟩
      = ∑ n : Fin 131072, f n := sum_row f

end Cert.LibRegroup

end
-- ==== Proof.KernelIdealValue.Final.lean ====
/-
  The idealized kernel's program, read to the end: its result is the fixed later function of the per-class sums and
  counts of the specification.

  After the launch, entry `(p, c, d)` of the first result array is the accumulator of half `p` after that half's last
  grid point, which is the sum over the half's 32 blocks of each block's contribution to class `c`; the host adds the
  two halves. A block's contribution is the sum over its 2048 rows, so the total is the sum over all 131072 rows,
  regrouped as (half, block, row) — on the extended reals a finite sum may be regrouped freely. The counts go the same
  way. The labels' range is used once: inside it, clamping a label to the class range changes nothing.
-/
import proofs.«101863_j34806414967394_2_alg».proof.Proof.KernelIdealValue.TailK
import proofs.«101863_j34806414967394_2_alg».proof.Proof.KernelIdealValue.Entry
import proofs.«101863_j34806414967394_2_alg».proof.Proof.KernelIdealValue.Chain
import proofs.«101863_j34806414967394_2_alg».proof.Proof.KernelIdealValue.Arrays
import proofs.«101863_j34806414967394_2_alg».proof.Proof.LibCoreSum
import proofs.«101863_j34806414967394_2_alg».proof.Proof.LibRegroup
import proofs.«101863_j34806414967394_2_alg».proof.Proof.RefValue

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A sum over the 64 blocks, split into the two halves of the grid. -/
theorem halves {M : Type} [AddCommMonoid M] (g : Fin 64 → M) :
    (∑ i : Fin 32, g ⟨i.val, by omega⟩) + (∑ i : Fin 32, g ⟨32 + i.val, by omega⟩) = ∑ t : Fin 64, g t := by
  rw [← Cert.LibRegroup.sum_block g, Fin.sum_univ_two]
  congr 1 <;> refine Finset.sum_congr rfl (fun i _ => congrArg g (Fin.ext ?_)) <;> simp [Cert.LibRegroup.blockOf]

section
variable (c : Dev nD)
  (hl : ∀ n : Fin 131072, 0 ≤ (m ((c.tc : Thread nD τ).loc main_arg1) (ix1 n)).toInt ∧ (m ((c.tc : Thread nD τ).loc main_arg1) (ix1 n)).toInt < 1000)
include hl

/-- The two halves' class sums added are the specification's class sums. -/
theorem sum_eq :
    Host.reduceAdd (F := Ideal) (WA m c main_v2_0) (constant S_ .f32 0x00000000#32) reducesTo_S2x1000x512_S1000x512_d0 h_S_
      = Cert.Spec.sumArr (fun n d => m ((c.tc : Thread nD τ).loc main_arg0) (ix2 n d)) (fun n => m ((c.tc : Thread nD τ).loc main_arg1) (ix1 n)) := by
  funext j
  obtain ⟨cl, d, rfl⟩ : ∃ (cl : Fin 1000) (d : Fin 512), j = ix2 cl d := ⟨j 0, j 1, eq_ix2 j⟩
  rw [Cert.Spec.sumArr_ix2, WA_v2_0]
  refine (Cert.LibCoreSum.coreSum _ _ _ cl d).trans ?_
  rw [arr2_apply m c 0 cl d, arr2_apply m c 1 cl d]
  refine (congrArg₂ (· + ·) (outs_31 m c hl cl d) (outs_63 m c hl cl d)).trans ?_
  refine (halves (fun t => bS m c t cl d)).trans ?_
  unfold Cert.Spec.classSum
  exact Cert.LibRegroup.sum_blk (fun n => Cert.Spec.hit (m ((c.tc : Thread nD τ).loc main_arg1) (ix1 n)) cl
    * Cert.Spec.unitRow (fun n d => m ((c.tc : Thread nD τ).loc main_arg0) (ix2 n d)) n d)

/-- The two halves' class counts added are the specification's class counts. -/
theorem cnt_eq :
    shapeCast S1000 (Host.reduceAdd (F := Ideal) (WA m c main_v2_1) (constant S_ .f32 0x00000000#32) reducesTo_S2x1x1000_S1x1000_d0 h_S_) shapeCasts_S1x1000_S1000
      = Cert.Spec.cntArr (fun n => m ((c.tc : Thread nD τ).loc main_arg1) (ix1 n)) := by
  funext j
  obtain ⟨cl, rfl⟩ : ∃ cl : Fin 1000, j = ix1 cl := ⟨j 0, eq_ix1 j⟩
  rw [Cert.Spec.cntArr_ix1, WA_v2_1]
  refine (Cert.LibCoreSum.coreCnt _ _ _ _ cl).trans ?_
  rw [arr3_apply m c 0 cl, arr3_apply m c 1 cl]
  refine (congrArg₂ (· + ·) (outs_31_C m c hl cl) (outs_63_C m c hl cl)).trans ?_
  refine (halves (fun t => bC m c t cl)).trans ?_
  unfold Cert.Spec.classCnt
  exact Cert.LibRegroup.sum_blk (fun n => Cert.Spec.hit (m ((c.tc : Thread nD τ).loc main_arg1) (ix1 n)) cl)

/-- The result buffer after the whole program: the later function of the specification's two tables. -/
theorem result_eq :
    Pipeline.afterTail₀ cfgs (dats m) 0 (V0 m) [hostOps1, hostOps1_1, hostOps1_2, hostOps1_3, hostOps1_4] c main_v46
      = Cert.Tail.tail (F := Ideal)
          (Cert.Spec.sumArr (fun n d => m ((c.tc : Thread nD τ).loc main_arg0) (ix2 n d)) (fun n => m ((c.tc : Thread nD τ).loc main_arg1) (ix1 n)))
          (Cert.Spec.cntArr (fun n => m ((c.tc : Thread nD τ).loc main_arg1) (ix1 n)))
          (Cert.ReferenceIdeal.RefValue.curR (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6)) := by
  rw [tail_WA, sum_eq m c hl, cnt_eq m c hl, WA_arg2, WA_arg3, WA_arg4, WA_arg5, WA_arg6, cur_eq]

end

/-- The run, read: the result at the later function of the specification's tables, the arguments unchanged. -/
theorem run (hl : ∀ (c : Dev nD) (n : Fin 131072), 0 ≤ (m ((c.tc : Thread nD τ).loc main_arg1) (ix1 n)).toInt ∧ (m ((c.tc : Thread nD τ).loc main_arg1) (ix1 n)).toInt < 1000) :
    θ_run defs (onTc (τ := τ) (main (F := Ideal))) ⟨m, fun _ => 0, ρ⟩ (fun r => ∀ c : Dev nD,
      r.2.mem ((c.tc : Thread nD τ).loc main_v46) = Cert.Tail.tail (F := Ideal)
          (Cert.Spec.sumArr (fun n d => m ((c.tc : Thread nD τ).loc main_arg0) (ix2 n d)) (fun n => m ((c.tc : Thread nD τ).loc main_arg1) (ix1 n)))
          (Cert.Spec.cntArr (fun n => m ((c.tc : Thread nD τ).loc main_arg1) (ix1 n)))
          (Cert.ReferenceIdeal.RefValue.curR (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v46 (Pipeline.mem_restRefs_of main_v46 (by decide) (by decide))).trans (result_eq m c (hl c)),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c)⟩) (run_main m ρ)

end Cert.KernelIdeal.Val

end
-- ==== Proof.PreLabels.lean ====
/-
  From the precondition to "every label is a class".

  The precondition is one conjunction: five tests that a floating-point argument is finite everywhere and, last,
  the test that every label word, read as a signed integer, is at least 0 and below 1000 (the conjunction over all
  131072 labels of the two comparisons against the constants 0 and 1000). If the whole conjunction is 1, its last
  conjunct is 1; a conjunction over all indices that is 1 is 1 at every index; and a signed comparison that is 1
  says the order of the two words' signed values. So every label is one of the classes 0, …, 999.
-/
import proofs.«101863_j34806414967394_2_alg».proof.Pre_finite_inputs
import proofs.«101863_j34806414967394_2_alg».proof.Proof.Gen.Pre_finite_inputs
import Idealize.ShloMosaic.Lib.ReduceAll
import Idealize.ShloMosaic.Lib.ValueIdx

noncomputable section

namespace Cert.PreLabels

open Idealize.ShloMosaic Idealize.ShloMosaic.ValueIdx

/-- A rank-0 array has one index. -/
instance subsingleton_scalar_idx : Subsingleton Cert.Pre_finite_inputs.S_.Idx :=
  ⟨fun a b => funext fun d => d.elim0⟩

/-- Under the precondition every label, read as a signed integer, lies in [0, 1000). -/
theorem labels_in_range {F : FTy → Type} [FloatOps F] [Cert.Pre_finite_inputs.Facts]
    (a0 : FVec F Cert.Pre_finite_inputs.S131072x512 .f32) (a1 : IVec Cert.Pre_finite_inputs.S131072 32)
    (a2 : IVec Cert.Pre_finite_inputs.S100 32) (a3 a4 : FVec F Cert.Pre_finite_inputs.S1000x512 .f32)
    (a5 a6 : FVec F Cert.Pre_finite_inputs.S1000 .f32)
    (h : Cert.Pre_finite_inputs.fn (F := F) a0 a1 a2 a3 a4 a5 a6 = fun _ => 1#1) (n : Fin 131072) :
    0 ≤ (a1 (Idealize.ShloMosaic.ValueIdx.ix1 n)).toInt ∧ (a1 (Idealize.ShloMosaic.ValueIdx.ix1 n)).toInt < 1000 := by
  have e := congrFun h ix0
  dsimp only [Cert.Pre_finite_inputs.fn, Cert.Pre_finite_inputs.fn_part1] at e
  -- the whole conjunction is 1, so its last conjunct, the conjunction over all labels, is 1
  have e2 := (IntOp.andi_eq_one.1 e).2
  -- so the test is 1 at label n
  have e3 := Host.reduce_andi_all _ _ _ _ _ e2 (ix1 n)
  -- the test at n is the conjunction of the two comparisons
  obtain ⟨hge, hlt⟩ := IntOp.andi_eq_one.1 e3
  have h0 := IntOp.cmpi_sge.1 hge
  have h1 := IntOp.cmpi_slt.1 hlt
  have z : (0#32 : BitVec 32).toInt = 0 := by decide
  have k : (1000#32 : BitVec 32).toInt = 1000 := by decide
  exact ⟨z ▸ h0, k ▸ h1⟩

end Cert.PreLabels

end
-- ==== Proof.lean ====
/-
  The kernel computes, for every class, the sum of the unit-normalised feature rows carrying that class's label and the
  number of such rows — as a one-hot matrix product accumulated block by block over a 2 × 32 grid, one slab per half of
  the grid, the two slabs added afterwards — and the reference computes the same two tables by scattering each row to
  its label. Both then apply one and the same sequence of operations to those tables and to the remaining arguments
  (class means, two mean squared errors against prototype tables, masks, a weighted total), so the claim reduces to the
  equality of the tables.

  On the extended reals a finite sum may be regrouped freely, a one-hot factor is 0 or 1 and both are absorbed
  exactly, and a change of float format is the identity, so the tables agree entry by entry; no finiteness is needed.
  What IS needed is that every label names a class: the kernel clamps its labels into the class range while the
  reference drops a row whose label is outside it, and the precondition says the labels are inside. The mask of
  current classes is built by the same scatter in both programs.

  The three frame claims: the two kernel programs by the pipeline library's run theorem for "host operations, one launch,
  host operations" over a hand-stated invariant of the two accumulators; the reference by its run, with the result
  dropped. The one rewrite of the ideal pass (a widening of a narrowing it removed) is that rule's own statement.
-/
import proofs.«101863_j34806414967394_2_alg».proof.Defs
import proofs.«101863_j34806414967394_2_alg».proof.Proof.Gen.Kernel
import proofs.«101863_j34806414967394_2_alg».proof.Proof.Gen.KernelIdeal
import proofs.«101863_j34806414967394_2_alg».proof.Proof.Gen.ReferenceIdeal
import proofs.«101863_j34806414967394_2_alg».proof.Proof.Gen.Pre_finite_inputs
import proofs.«101863_j34806414967394_2_alg».proof.Proof.KernelFrame.Frame
import proofs.«101863_j34806414967394_2_alg».proof.Proof.KernelIdealValue.Final
import proofs.«101863_j34806414967394_2_alg».proof.Proof.RefValue
import proofs.«101863_j34806414967394_2_alg».proof.Proof.PreLabels
import Idealize.ShloMosaic.Adequacy
import Idealize.ShloMosaic.Init
import Idealize.ShloMosaic.PureOps.IdealRules

noncomputable section

namespace Cert.Proof

open Idealize.ShloMosaic Idealize.SL.Sem Idealize.ShloMosaic.ValueIdx

theorem frame_k : Cert.frame_Kernel := fun m ρ _ => Cert.Kernel.Fr.frame m ρ

theorem frame_ki : Cert.frame_KernelIdeal := fun m ρ _ => Cert.KernelIdeal.Fr.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass's one rewrite: widening back what was just narrowed is the identity on exact values. -/
theorem preserves : Cert.preserves_Kernel_KernelIdeal :=
  IdealRules.truncf_extf.statement _ .f32 .bf16

/-- Both programs end at the later function of the specification's class sums and counts; the labels' range comes from
    the precondition, the arguments' agreement is rewritten. -/
theorem algebraic : Cert.algebraic_KernelIdeal_ReferenceIdeal := by
  intro m ρ m' ρ' hpre hagree
  have hl : ∀ (c : Dev Cert.KernelIdeal.nD) (n : Fin 131072),
      0 ≤ (m ((c.tc : Thread Cert.KernelIdeal.nD Cert.KernelIdeal.τ).loc Cert.KernelIdeal.main_arg1) (ix1 n)).toInt
        ∧ (m ((c.tc : Thread Cert.KernelIdeal.nD Cert.KernelIdeal.τ).loc Cert.KernelIdeal.main_arg1) (ix1 n)).toInt < 1000 :=
    fun c n => Cert.PreLabels.labels_in_range _ _ _ _ _ _ _ (hpre c) n
  refine ⟨_, Cert.KernelIdeal.Val.run m ρ hl, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
